-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x1 : Shape := ⟨2, ![1, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S5000x1 : Shape := ⟨2, ![5000, 1]⟩

abbrev nBuf : Space → Nat
  | .hbm => 74
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S100000x1, .f32⟩
  | .hbm, ⟨32, _⟩ => ⟨S1x64, .f32⟩
  | .hbm, ⟨33, _⟩ => ⟨S1x64, .f32⟩
  | .hbm, ⟨34, _⟩ => ⟨S1x1, .f32⟩
  | .hbm, ⟨35, _⟩ => ⟨S100000x64, .f32⟩
  | .hbm, ⟨36, _⟩ => ⟨S100000x64, .bf16⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .bf16⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .bf16⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .bf16⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37_0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x1, .f32⟩
  | 124 => ⟨S1x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S_, .f32⟩
  | 5 => ⟨S100000x1, .f32⟩
  | 6 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_18 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run with its result array NAMED.  The program is three pipelined regions among three
  stretches of host operations; the buffer contents at the six segment boundaries are a fold from the launch memory
  (`W1 … W6`), and after the last region every unscoped buffer holds the last boundary's contents.  So the result
  array `main_v52` ends at `W6 … main_v52` — what the third region's write-backs leave of it — while the eight
  argument arrays end as launched.
-/
import proofs.«141481_j48095043781198_2_alg».proof.Proof.KernelIdealFrame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and each argument array as launched. -/
theorem run_named : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.LibMatmul2.lean ====
/-
  A product of two matrices [M,K]·[K,N] into a zero accumulator, at the ideal values, read at an entry:
  the sum over the K positions of the contracted axis of the left operand's row entry times the right
  operand's column entry.  The dimension record is any one that contracts the left operand's second axis
  with the right operand's first and keeps the other two axes in order, without batch axes.
-/
import Idealize.ShloMosaic.Lib.ValueIdx
import Idealize.ShloMosaic.PureOps.Ideal.Laws

noncomputable section

namespace Cert.LibMatmul2

open Idealize.ShloMosaic Idealize.ShloMosaic.ValueIdx

variable {sl sr so : Shape} (d : DotDims sl sr so)

/-- On the left operand's one kept axis (no batch axes) the left index reads the result index's first coordinate. -/
theorem lhsIdx_val_of_non {a : Fin sl.rank} (hb : d.lhsBatch = []) (hn : d.lhsNonContracting = [a]) (j : so.Idx) (k : d.contr.Idx) :
    (d.lhsIdx j k a).val = (j ⟨0, by rw [d.rank_out, hb, hn]; simp⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's one kept axis (no batch axes, one kept axis on the left) the right index reads the
    result index's second coordinate. -/
theorem rhsIdx_val_of_non {a : Fin sr.rank} {al : Fin sl.rank} (hb : d.rhsBatch = []) (hlb : d.lhsBatch = [])
    (hln : d.lhsNonContracting = [al]) (hn : d.rhsNonContracting = [a]) (j : so.Idx) (k : d.contr.Idx) :
    (d.rhsIdx j k a).val = (j ⟨1, by rw [d.rank_out, hlb, hln, hn]; simp⟩).val := by
  have hmem : a ∈ d.rhsNonContracting := by rw [hn]; exact List.mem_singleton.mpr rfl
  unfold DotDims.rhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- The plain arrangement of a matrix product's dimension numbers. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {φ₁ φ₂ : FTy}

theorem Plain.rank {d : DotDims ⟨2, ![M, K]⟩ ⟨2, ![K, N]⟩ ⟨2, ![M, N]⟩} (h : Plain d) : d.contr.rank = 1 := by
  rw [d.rank_contr, h.lc]; rfl

theorem Plain.size {d : DotDims ⟨2, ![M, K]⟩ ⟨2, ![K, N]⟩ ⟨2, ![M, N]⟩} (h : Plain d) :
    d.contr.size ⟨0, by rw [h.rank]; exact Nat.one_pos⟩ = K := by
  have := d.size_contr 0 (by rw [h.lc]; exact Nat.one_pos)
  rw [this]
  simp [h.lc]

/-- THE ENTRY of a plain matrix product into a zero accumulator at the ideal values. -/
theorem matmul_apply {d : DotDims ⟨2, ![M, K]⟩ ⟨2, ![K, N]⟩ ⟨2, ![M, N]⟩} (h : Plain d) (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ l : Fin K, A (ix2 (j 0) l) * B (ix2 l (j 1)) := by
  rw [Ideal.matmul_constant_zero_apply]
  rw [← Equiv.sum_comp (contrEquiv1 d K h.rank h.size).symm]
  refine Finset.sum_congr rfl fun l _ => ?_
  have hl : d.lhsIdx j ((contrEquiv1 d K h.rank h.size).symm l) = ix2 (j 0) l := by
    funext a; apply Fin.ext
    match a with
    | ⟨0, _⟩ => exact lhsIdx_val_of_non d h.lb h.ln j _
    | ⟨1, _⟩ => exact (d.lhsIdx_val_of_single h.lc j _).trans (contrEquiv1_symm_val d K h.rank h.size l)
  have hr : d.rhsIdx j ((contrEquiv1 d K h.rank h.size).symm l) = ix2 l (j 1) := by
    funext a; apply Fin.ext
    match a with
    | ⟨0, _⟩ => exact (d.rhsIdx_val_of_single h.rc j _).trans (contrEquiv1_symm_val d K h.rank h.size l)
    | ⟨1, _⟩ => exact rhsIdx_val_of_non d h.rb h.lb h.ln h.rn j _
  rw [hl, hr]
  rfl

end Cert.LibMatmul2

end
-- ==== Proof.Region0.lean ====
/-
  The first region: the node features times the first weight matrix, one block of 5000 rows per grid point.

  At the exact values the block product into a zero accumulator is, entry by entry, the sum over the 128 contracted
  positions of a row entry of the features' block times a column entry of the weights; row `p` of block `t` is row
  `5000 t + p` of the whole array, and the weights' block is the whole matrix.  So what point `t` writes back is block
  `t` of the whole product — the host's `dot_general` of the two arrays — and the twenty blocks cover the rows: both
  result arrays (the second is the first stored in the narrower format, the same extended reals) end at the whole product.
-/
import proofs.«141481_j48095043781198_2_alg».proof.Proof.KernelIdealFrame
import proofs.«141481_j48095043781198_2_alg».proof.Proof.LibMatmul2
import proofs.«141481_j48095043781198_2_alg».proof.Proof.Gen.ReferenceIdeal.Read
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The block product at an entry: the sum over the contracted axis. -/
theorem pay_apply (x0 : Vec Ideal S5000x128 .f32) (x1 : Vec Ideal S128x64 .f32) (p : Fin 5000) (q : Fin 64) :
    k0_pay1 (F := Ideal) x0 x1 (ix2 p q) = ∑ l : Fin 128, x0 (ix2 p l) * x1 (ix2 l q) := by
  unfold k0_pay1
  exact Cert.LibMatmul2.matmul_apply (φ₁ := .bf16) (φ₂ := .bf16) ⟨rfl, rfl, rfl, rfl, rfl, rfl⟩ none _ _ (ix2 p q)

/-- The printed index maps over the twenty points: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry `(p, q)` of what the body leaves at point `t` is entry `(5000 t + p, q)` of the whole product. -/
theorem body_entry (c : Dev nD) (t : Fin cfg0.N) (X : S100000x128.Idx → EReal) (Wm : S128x64.Idx → EReal)
    (hX : V c (Pipeline.arrRef spec0 0) = X) (hW : V c (Pipeline.arrRef spec0 1) = Wm) (j : S5000x64.Idx) :
    k0_pay1 (F := Ideal) (iblk0 V c 0 t) (iblk0 V c 1 t) j
      = Cert.ReferenceIdeal.Read.val_main_v4 (F := Ideal) X Wm (((cfg0.win 2).blk t).view.emb j) := by
  obtain ⟨p, q, rfl⟩ : ∃ (p : Fin 5000) (q : Fin 64), j = ix2 p q := ⟨j 0, j 1, eq_ix2 j⟩
  obtain ⟨e00, e01, e10, e11, e20, e21, -, -⟩ := idx_facts t
  rw [pay_apply, Cert.ReferenceIdeal.Read.val_main_v4_apply]
  refine Finset.sum_congr rfl fun l _ => ?_
  have h0 : iblk0 V c 0 t (ix2 p l) = X (Cert.ReferenceIdeal.Read.lidx_main_v4 (((cfg0.win 2).blk t).view.emb (ix2 p q)) l) := by
    show V c (Pipeline.arrRef spec0 0) (((cfg0.win 0).blk t).view.emb (ix2 p l)) = _
    rw [hX]
    refine congrArg X (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * l.val = l.val; omega
  have h1 : iblk0 V c 1 t (ix2 l q) = Wm (Cert.ReferenceIdeal.Read.ridx_main_v4 (((cfg0.win 2).blk t).view.emb (ix2 p q)) l) := by
    show V c (Pipeline.arrRef spec0 1) (((cfg0.win 1).blk t).view.emb (ix2 l q)) = _
    rw [hW]
    refine congrArg Wm (funext fun a => Fin.ext ?_)
    match a with
    | ⟨0, _⟩ => show win0_1.index t (0 : Fin 2) * 128 + 1 * l.val = l.val; omega
    | ⟨1, _⟩ => show win0_1.index t (1 : Fin 2) * 64 + 1 * q.val = win0_2.index t (1 : Fin 2) * 64 + 1 * q.val; omega
  rw [h0, h1]

/-- What point `t` writes back to the first result array is block `t` of the whole product. -/
theorem flushed2 (c : Dev nD) (t : Fin cfg0.N) (X : S100000x128.Idx → EReal) (Wm : S128x64.Idx → EReal)
    (hX : V c (Pipeline.arrRef spec0 0) = X) (hW : V c (Pipeline.arrRef spec0 1) = Wm) :
    (dat0 V c).flushed 2 t
      = ((cfg0.win 2).blk t).view.read (Elt Ideal) (Cert.ReferenceIdeal.Read.val_main_v4 (F := Ideal) X Wm) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  exact body_entry V c t X Wm hX hW j

/-- The second result array's block at a point sits where the first's does. -/
theorem emb3 (t : Fin cfg0.N) (j : S5000x64.Idx) :
    ((cfg0.win 3).blk t).view.emb j = ((cfg0.win 2).blk t).view.emb j := by
  obtain ⟨-, -, -, -, e20, e21, e30, e31⟩ := idx_facts t
  funext a; apply Fin.ext
  match a with
  | ⟨0, _⟩ => show win0_3.index t (0 : Fin 2) * 5000 + 1 * (j 0).val = win0_2.index t (0 : Fin 2) * 5000 + 1 * (j 0).val; omega
  | ⟨1, _⟩ => show win0_3.index t (1 : Fin 2) * 64 + 1 * (j 1).val = win0_2.index t (1 : Fin 2) * 64 + 1 * (j 1).val; omega

/-- The same for the copy stored in the narrower format: at the exact values the same numbers. -/
theorem flushed3 (c : Dev nD) (t : Fin cfg0.N) (X : S100000x128.Idx → EReal) (Wm : S128x64.Idx → EReal)
    (hX : V c (Pipeline.arrRef spec0 0) = X) (hW : V c (Pipeline.arrRef spec0 1) = Wm) :
    (dat0 V c).flushed 3 t
      = ((cfg0.win 3).blk t).view.read (Elt Ideal) (Cert.ReferenceIdeal.Read.val_main_v4 (F := Ideal) X Wm) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz]
  funext j
  show k0_pay1 (F := Ideal) (iblk0 V c 0 t) (iblk0 V c 1 t) j
      = Cert.ReferenceIdeal.Read.val_main_v4 (F := Ideal) X Wm (((cfg0.win 3).blk t).view.emb j)
  rw [emb3]
  exact body_entry V c t X Wm hX hW j

/-- An index of a result array is in point `t`'s block iff each coordinate is in the block's range. -/
theorem mem_blk2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v22_0).slice (win0_2.rect t)).set ↔ _
  rw [View.set_slice_whole, Rect.mem_set_unit]
  exact Iff.rfl
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v22_1).slice (win0_3.rect t)).set ↔ _
  rw [View.set_slice_whole, Rect.mem_set_unit]
  exact Iff.rfl

/-- The twenty row blocks cover the array: row `r` is in block `r / 5000`. -/
theorem cover2 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < 20 := by omega
  refine ⟨⟨(i 0).val / 5000, ht⟩, flush0_2 _, ?_⟩
  rw [mem_blk2]
  obtain ⟨-, -, -, -, e20, e21, -, -⟩ := idx_facts ⟨(i 0).val / 5000, ht⟩
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e20]; show (i 0).val / 5000 * 5000 ≤ (i 0).val ∧ (i 0).val < (i 0).val / 5000 * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; rw [e21]; omega
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < 20 := by omega
  refine ⟨⟨(i 0).val / 5000, ht⟩, flush0_3 _, ?_⟩
  rw [mem_blk3]
  obtain ⟨-, -, -, -, -, -, e30, e31⟩ := idx_facts ⟨(i 0).val / 5000, ht⟩
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; rw [e30]; show (i 0).val / 5000 * 5000 ≤ (i 0).val ∧ (i 0).val < (i 0).val / 5000 * 5000 + 5000; omega
  | ⟨1, _⟩ => show win0_3.index ⟨(i 0).val / 5000, ht⟩ (1 : Fin 2) * 64 ≤ (i 1).val ∧ (i 1).val < win0_3.index ⟨(i 0).val / 5000, ht⟩ (1 : Fin 2) * 64 + 64; rw [e31]; omega

/-- After the region both result arrays hold the whole product of the two arrays the region was entered with. -/
theorem final2 (c : Dev nD) (X : S100000x128.Idx → EReal) (Wm : S128x64.Idx → EReal)
    (hX : V c (Pipeline.arrRef spec0 0) = X) (hW : V c (Pipeline.arrRef spec0 1) = Wm) :
    (dat0 V c).arrAt 2 cfg0.N = Cert.ReferenceIdeal.Read.val_main_v4 (F := Ideal) X Wm :=
  (dat0 V c).arrAt_eq_of_cover 2 _ (fun t _ => flushed2 V c t X Wm hX hW) cover2
theorem final3 (c : Dev nD) (X : S100000x128.Idx → EReal) (Wm : S128x64.Idx → EReal)
    (hX : V c (Pipeline.arrRef spec0 0) = X) (hW : V c (Pipeline.arrRef spec0 1) = Wm) :
    (dat0 V c).arrAt 3 cfg0.N = Cert.ReferenceIdeal.Read.val_main_v4 (F := Ideal) X Wm :=
  (dat0 V c).arrAt_eq_of_cover 3 _ (fun t _ => flushed3 V c t X Wm hX hW) cover3

end Cert.KernelIdeal.Region0

end
-- ==== Proof.RefRead.lean ====
/-
  The reference's dense stages read at one node: the layer's combination before the clipping and the product, as the
  aggregated entry plus the squared node normalisation times the node's own entry plus the bias entry.
-/
import proofs.«141481_j48095043781198_2_alg».proof.Proof.Gen.ReferenceIdeal.Read
import Idealize.ShloMosaic.Lib.ValueIdx
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : S100000x128.Idx → EReal) (x1 : IVec S2x1600000 32) (x2 : S128x64.Idx → EReal) (x3 : S64.Idx → EReal)
  (x4 : S64x64.Idx → EReal) (x5 : S64.Idx → EReal) (x6 : S64x1.Idx → EReal) (x7 : S1.Idx → EReal)

/-- The first layer's clipped combination at node `n`, hidden position `l`. -/
theorem v48_entry (n : Fin 100000) (l : Fin 64) :
    val_main_v48 (F := Ideal) x0 x1 x2 x3 (ix2 n l)
      = max ((val_main_v39 (F := Ideal) x0 x1 x2 (ix2 n l)
            + (val_main_v11 (F := Ideal) x1 (ix1 n) * val_main_v11 (F := Ideal) x1 (ix1 n)) * val_main_v4 (F := Ideal) x0 x2 (ix2 n l))
          + x3 (ix1 l)) (Ideal.ofBits .f32 0x00000000#32) := by
  rw [val_main_v48_apply, val_main_v47_apply, val_main_v44_apply, val_main_v43_apply, val_main_v42_apply, val_main_v41_apply,
    val_main_v40_apply, val_main_v46_apply, val_main_v45_apply, val_main_call0_v0_apply, val_main_call0_cst_apply]
  have e1 : idx_main_v41 (idx_main_v42 (ix2 n l)) = ix1 n := funext fun a => Fin.ext (by match a with | ⟨0, _⟩ => rfl)
  have e2 : idx_main_v45 (idx_main_v46 (ix2 n l)) = ix1 l := funext fun a => Fin.ext (by match a with | ⟨0, _⟩ => rfl)
  rw [e1, e2]
  rfl

/-- The second layer's combination at node `n`, hidden position `l`. -/
theorem v92_entry (n : Fin 100000) (l : Fin 64) :
    val_main_v92 (F := Ideal) x0 x1 x2 x3 x4 x5 (ix2 n l)
      = (val_main_v84 (F := Ideal) x0 x1 x2 x3 x4 (ix2 n l)
            + (val_main_v56 (F := Ideal) x1 (ix1 n) * val_main_v56 (F := Ideal) x1 (ix1 n)) * val_main_v49 (F := Ideal) x0 x1 x2 x3 x4 (ix2 n l))
          + x5 (ix1 l) := by
  rw [val_main_v92_apply, val_main_v89_apply, val_main_v88_apply, val_main_v87_apply, val_main_v86_apply,
    val_main_v85_apply, val_main_v91_apply, val_main_v90_apply]
  have e1 : idx_main_v86 (idx_main_v87 (ix2 n l)) = ix1 n := funext fun a => Fin.ext (by match a with | ⟨0, _⟩ => rfl)
  have e2 : idx_main_v90 (idx_main_v91 (ix2 n l)) = ix1 l := funext fun a => Fin.ext (by match a with | ⟨0, _⟩ => rfl)
  rw [e1, e2]
  rfl

/-- One over one plus the exponential of the negative, in the host's operations, is the logistic function. -/
theorem logistic_host (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  show Ideal.div (Ideal.ofBits .f32 0x3F800000#32) (Ideal.ofBits .f32 0x3F800000#32 + Ideal.exp (-y)) = _
  rw [Ideal.ofBits_one_f32]
  rfl

/-- The reference's result at node `n`: the logistic function of the head's product plus its bias. -/
theorem v102_entry (n : Fin 100000) :
    val_main_v102 (F := Ideal) x0 x1 x2 x3 x4 x5 x6 x7 (ix2 n 0)
      = Ideal.logistic ((∑ l : Fin 64, val_main_v92 (F := Ideal) x0 x1 x2 x3 x4 x5 (ix2 n l) * x6 (ix2 l 0)) + x7 (ix1 0)) := by
  rw [val_main_v102_apply, val_main_v101_apply, val_main_cst_19_apply, val_main_v100_apply, val_main_v99_apply,
    val_main_cst_18_apply, val_main_v98_apply, val_main_v97_apply, val_main_v96_apply, val_main_v93_apply,
    val_main_v95_apply, val_main_v94_apply]
  have e1 : idx_main_v94 (idx_main_v95 (ix2 n 0)) = ix1 0 := funext fun a => Fin.ext (by match a with | ⟨0, _⟩ => rfl)
  have eL : ∀ k : Fin 64, lidx_main_v93 (ix2 n 0) k = ix2 n k := fun k => funext fun a => Fin.ext (by match a with | ⟨0, _⟩ => rfl | ⟨1, _⟩ => rfl)
  have eR : ∀ k : Fin 64, ridx_main_v93 (ix2 n 0) k = ix2 k 0 := fun k => funext fun a => Fin.ext (by match a with | ⟨0, _⟩ => rfl | ⟨1, _⟩ => rfl)
  rw [e1]
  simp only [eL, eR]
  exact logistic_host _

end Cert.ReferenceIdeal.RefValue

end
-- ==== Proof.Region1.lean ====
/-
  The second region: per block of 5000 nodes, the combination of the aggregated rows, the node's own rows and the
  bias, clipped at zero, times the second weight matrix.

  At the exact values, entry (p, q) of a block's result is the sum over the 64 hidden positions l of
  max (d_p · a_(p,l) + (d_p · d_p) · h_(p,l) + b_l, 0) · w_(l,q), where d is the block of the node normalisation
  (a column), a the block of the aggregated rows, h the block of the node's own rows, b the bias row and w the
  weights.  Row p of block t is row 5000 t + p of each array.
-/
import proofs.«141481_j48095043781198_2_alg».proof.Proof.KernelIdealFrame
import proofs.«141481_j48095043781198_2_alg».proof.Proof.LibMatmul2
import proofs.«141481_j48095043781198_2_alg».proof.Proof.Gen.ReferenceIdeal.Read
import proofs.«141481_j48095043781198_2_alg».proof.Proof.RefRead
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A column laid along the 64 lanes, read at an entry. -/
theorem col_bcast {α : Type} (x : S5000x1.Idx → α) (h : S5000x1.Broadcasts S5000x64) (p : Fin 5000) (l : Fin 64) :
    broadcastTo S5000x64 x h (ix2 p l) = x (ix2 p 0) :=
  broadcastTo_apply x h (ix2 p l) (ix2 p 0) (fun a => match a with
    | ⟨0, _⟩ => by show p.val = if (5000 : Nat) = 1 then 0 else p.val; rw [if_neg (by decide)]
    | ⟨1, _⟩ => by show (0 : Nat) = if (1 : Nat) = 1 then 0 else l.val; rw [if_pos rfl])

/-- A row laid along the 5000 rows, read at an entry. -/
theorem row_bcast {α : Type} (x : S1x64.Idx → α) (h : S1x64.Broadcasts S5000x64) (p : Fin 5000) (l : Fin 64) :
    broadcastTo S5000x64 x h (ix2 p l) = x (ix2 0 l) :=
  broadcastTo_apply x h (ix2 p l) (ix2 0 l) (fun a => match a with
    | ⟨0, _⟩ => by show (0 : Nat) = if (1 : Nat) = 1 then 0 else p.val; rw [if_pos rfl]
    | ⟨1, _⟩ => by show l.val = if (64 : Nat) = 1 then 0 else l.val; rw [if_neg (by decide)])

/-- The block's result at an entry. -/
theorem pay_apply (d : Vec Ideal S5000x1 .f32) (a : Vec Ideal S5000x64 .f32) (h : Vec Ideal S5000x64 .f32)
    (b : Vec Ideal S1x64 .f32) (w : Vec Ideal S64x64 .f32) (p : Fin 5000) (q : Fin 64) :
    k1_pay1 (F := Ideal) d a h b w (ix2 p q)
      = ∑ l : Fin 64, max ((d (ix2 p 0) * a (ix2 p l) + (d (ix2 p 0) * d (ix2 p 0)) * h (ix2 p l)) + b (ix2 0 l))
          (Ideal.ofBits .f32 0x00000000#32) * w (ix2 l q) := by
  unfold k1_pay1
  refine (Cert.LibMatmul2.matmul_apply (φ₁ := .bf16) (φ₂ := .bf16) ⟨rfl, rfl, rfl, rfl, rfl, rfl⟩ none _ _ (ix2 p q)).trans ?_
  refine Finset.sum_congr rfl fun l _ => ?_
  simp only [shapeCast_self, show (ix2 p q) 0 = p from rfl, show (ix2 p q) 1 = q from rfl, truncf_apply, maximumf_apply,
    addf_apply, mulf_apply, broadcast_apply, col_bcast, row_bcast]
  rfl

/-- The copy stored in the narrower format is, at the exact values, the same array. -/
theorem pay2_eq (d : Vec Ideal S5000x1 .f32) (a : Vec Ideal S5000x64 .f32) (h : Vec Ideal S5000x64 .f32)
    (b : Vec Ideal S1x64 .f32) (w : Vec Ideal S64x64 .f32) : k1_pay2 (F := Ideal) d a h b w = k1_pay1 (F := Ideal) d a h b w := rfl

/-- The printed index maps over the twenty points: the row blocks move with the point, the bias and the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What the region needs of the arrays it is entered with, against the reference's first layer: the node
    normalisation column `D` is the reference's, `D` times the aggregated rows `A` is the reference's aggregation,
    the node's own rows `Hs` are the reference's projected features, `B` is the bias as a row, `Wt` the weights. -/
structure Entry (A : S100000x64.Idx → EReal) (D : S100000x1.Idx → EReal) (Hs : S100000x64.Idx → EReal)
    (B : S1x64.Idx → EReal) (Wt : S64x64.Idx → EReal)
    (x0 : S100000x128.Idx → EReal) (x1 : IVec S2x1600000 32) (x2 : S128x64.Idx → EReal)
    (x3 : S64.Idx → EReal) (x4 : S64x64.Idx → EReal) : Prop where
  agg : ∀ (n : Fin 100000) (l : Fin 64), D (ix2 n 0) * A (ix2 n l) = Cert.ReferenceIdeal.Read.val_main_v39 (F := Ideal) x0 x1 x2 (ix2 n l)
  dis : ∀ n : Fin 100000, D (ix2 n 0) = Cert.ReferenceIdeal.Read.val_main_v11 (F := Ideal) x1 (ix1 n)
  self : ∀ (n : Fin 100000) (l : Fin 64), Hs (ix2 n l) = Cert.ReferenceIdeal.Read.val_main_v4 (F := Ideal) x0 x2 (ix2 n l)
  bias : ∀ l : Fin 64, B (ix2 0 l) = x3 (ix1 l)
  wts : ∀ (l q : Fin 64), Wt (ix2 l q) = x4 (ix2 l q)

/-- The arrays the region is entered with, named. -/
structure Arrays (V : (c : Dev nD) → (b : Ref sig .tc) → Buf (Elt Ideal) ((c : Thread nD τ).loc b)) (c : Dev nD)
    (A : S100000x64.Idx → EReal) (D : S100000x1.Idx → EReal) (Hs : S100000x64.Idx → EReal)
    (B : S1x64.Idx → EReal) (Wt : S64x64.Idx → EReal) : Prop where
  a : V c (Pipeline.arrRef spec1 0) = A
  d : V c (Pipeline.arrRef spec1 1) = D
  h : V c (Pipeline.arrRef spec1 2) = Hs
  b : V c (Pipeline.arrRef spec1 3) = B
  w : V c (Pipeline.arrRef spec1 4) = Wt

/-- Entry `(p, q)` of what the body leaves at point `t` is entry `(5000 t + p, q)` of the reference's second
    projection. -/
theorem body_entry (c : Dev nD) (t : Fin cfg1.N) (x0 : S100000x128.Idx → EReal) (x1 : IVec S2x1600000 32)
    (x2 : S128x64.Idx → EReal) (x3 : S64.Idx → EReal) (x4 : S64x64.Idx → EReal)
    (A : S100000x64.Idx → EReal) (D : S100000x1.Idx → EReal) (Hs : S100000x64.Idx → EReal) (B : S1x64.Idx → EReal) (Wt : S64x64.Idx → EReal)
    (hV : Arrays V c A D Hs B Wt) (hE : Entry A D Hs B Wt x0 x1 x2 x3 x4)
    (j : S5000x64.Idx) :
    k1_pay1 (F := Ideal) (iblk1 V c 1 t) (iblk1 V c 0 t) (iblk1 V c 2 t) (iblk1 V c 3 t) (iblk1 V c 4 t) j
      = Cert.ReferenceIdeal.Read.val_main_v49 (F := Ideal) x0 x1 x2 x3 x4 (((cfg1.win 5).blk t).view.emb j) := by
  obtain ⟨p, q, rfl⟩ : ∃ (p : Fin 5000) (q : Fin 64), j = ix2 p q := ⟨j 0, j 1, eq_ix2 j⟩
  obtain ⟨e00, e01, e10, e11, e20, e21, e30, e31, e40, e41, e50, e51, -, -⟩ := idx_facts t
  have ht : t.val < 20 := t.isLt
  have hn : 5000 * t.val + p.val < 100000 := by have := p.isLt; omega
  rw [pay_apply, Cert.ReferenceIdeal.Read.val_main_v49_apply]
  refine Finset.sum_congr rfl fun l _ => ?_
  have b1 : iblk1 V c 1 t (ix2 p 0) = D (ix2 ⟨5000 * t.val + p.val, hn⟩ 0) := by
    show V c (Pipeline.arrRef spec1 1) (((cfg1.win 1).blk t).view.emb (ix2 p 0)) = _
    rw [hV.d]
    refine congrArg D (funext fun a => Fin.ext ?_)
    match a with
    | ⟨0, _⟩ => show win1_1.index t (0 : Fin 2) * 5000 + 1 * p.val = 5000 * t.val + p.val; omega
    | ⟨1, _⟩ => show win1_1.index t (1 : Fin 2) * 1 + 1 * 0 = 0; omega
  have b0 : iblk1 V c 0 t (ix2 p l) = A (ix2 ⟨5000 * t.val + p.val, hn⟩ l) := by
    show V c (Pipeline.arrRef spec1 0) (((cfg1.win 0).blk t).view.emb (ix2 p l)) = _
    rw [hV.a]
    refine congrArg A (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * l.val = l.val; omega
  have b2 : iblk1 V c 2 t (ix2 p l) = Hs (ix2 ⟨5000 * t.val + p.val, hn⟩ l) := by
    show V c (Pipeline.arrRef spec1 2) (((cfg1.win 2).blk t).view.emb (ix2 p l)) = _
    rw [hV.h]
    refine congrArg Hs (funext fun a => Fin.ext ?_)
    match a with
    | ⟨0, _⟩ => show win1_2.index t (0 : Fin 2) * 5000 + 1 * p.val = 5000 * t.val + p.val; omega
    | ⟨1, _⟩ => show win1_2.index t (1 : Fin 2) * 64 + 1 * l.val = l.val; omega
  have b3 : iblk1 V c 3 t (ix2 0 l) = B (ix2 0 l) := by
    show V c (Pipeline.arrRef spec1 3) (((cfg1.win 3).blk t).view.emb (ix2 0 l)) = _
    rw [hV.b]
    refine congrArg B (funext fun a => Fin.ext ?_)
    match a with
    | ⟨0, _⟩ => show win1_3.index t (0 : Fin 2) * 1 + 1 * 0 = 0; omega
    | ⟨1, _⟩ => show win1_3.index t (1 : Fin 2) * 64 + 1 * l.val = l.val; omega
  have b4 : iblk1 V c 4 t (ix2 l q) = Wt (ix2 l q) := by
    show V c (Pipeline.arrRef spec1 4) (((cfg1.win 4).blk t).view.emb (ix2 l q)) = _
    rw [hV.w]
    refine congrArg Wt (funext fun a => Fin.ext ?_)
    match a with
    | ⟨0, _⟩ => show win1_4.index t (0 : Fin 2) * 64 + 1 * l.val = l.val; omega
    | ⟨1, _⟩ => show win1_4.index t (1 : Fin 2) * 64 + 1 * q.val = q.val; omega
  have eL : Cert.ReferenceIdeal.Read.lidx_main_v49 (((cfg1.win 5).blk t).view.emb (ix2 p q)) l = ix2 ⟨5000 * t.val + p.val, hn⟩ l := by
    funext a; apply Fin.ext
    match a with
    | ⟨0, _⟩ => show win1_5.index t (0 : Fin 2) * 5000 + 1 * p.val = 5000 * t.val + p.val; omega
    | ⟨1, _⟩ => rfl
  have eR : Cert.ReferenceIdeal.Read.ridx_main_v49 (((cfg1.win 5).blk t).view.emb (ix2 p q)) l = ix2 l q := by
    funext a; apply Fin.ext
    match a with
    | ⟨0, _⟩ => rfl
    | ⟨1, _⟩ => show win1_5.index t (1 : Fin 2) * 64 + 1 * q.val = q.val; omega
  rw [b1, b0, b2, b3, b4]
  have key : max ((D (ix2 ⟨5000 * t.val + p.val, hn⟩ 0) * A (ix2 ⟨5000 * t.val + p.val, hn⟩ l)
        + (D (ix2 ⟨5000 * t.val + p.val, hn⟩ 0) * D (ix2 ⟨5000 * t.val + p.val, hn⟩ 0)) * Hs (ix2 ⟨5000 * t.val + p.val, hn⟩ l)) + B (ix2 0 l))
        (Ideal.ofBits .f32 0x00000000#32) * Wt (ix2 l q)
      = Cert.ReferenceIdeal.Read.val_main_v48 (F := Ideal) x0 x1 x2 x3 (ix2 ⟨5000 * t.val + p.val, hn⟩ l) * x4 (ix2 l q) := by
    rw [Cert.ReferenceIdeal.RefValue.v48_entry, hE.agg, hE.dis, hE.self, hE.bias, hE.wts]
  exact key.trans (congrArg₂ (fun a b => Cert.ReferenceIdeal.Read.val_main_v48 (F := Ideal) x0 x1 x2 x3 a * x4 b) eL.symm eR.symm)

/-- A full block written back is the staging buffer's contents, entry by entry (the windows are not cut at the edge). -/
theorem cut5 (t : Fin cfg1.N) (P : FVec Ideal S5000x64 .f32) (j : ((win1 5).xblock (grid1.coords t)).Idx) :
    (win1 5).cut (grid1.coords t) P j = P j := rfl
theorem cut6 (t : Fin cfg1.N) (P : FVec Ideal S5000x64 .bf16) (j : ((win1 6).xblock (grid1.coords t)).Idx) :
    (win1 6).cut (grid1.coords t) P j = P j := rfl
/-- An array read through a point's block, entry by entry. -/
theorem read5 (t : Fin cfg1.N) (G : S100000x64.Idx → EReal) (j : ((win1 5).xblock (grid1.coords t)).Idx) :
    View.read (Elt Ideal) ((View.whole main_v37_0).slice ((win1 5).rect t)) G j = G (((cfg1.win 5).blk t).view.emb j) := rfl
theorem read6 (t : Fin cfg1.N) (G : S100000x64.Idx → EReal) (j : ((win1 6).xblock (grid1.coords t)).Idx) :
    View.read (Elt Ideal) ((View.whole main_v37_1).slice ((win1 6).rect t)) G j = G (((cfg1.win 6).blk t).view.emb j) := rfl

/-- What point `t` writes back to the first result array is block `t` of the reference's second projection. -/
theorem flushed2 (c : Dev nD) (t : Fin cfg1.N) (x0 : S100000x128.Idx → EReal) (x1 : IVec S2x1600000 32)
    (x2 : S128x64.Idx → EReal) (x3 : S64.Idx → EReal) (x4 : S64x64.Idx → EReal)
    (A : S100000x64.Idx → EReal) (D : S100000x1.Idx → EReal) (Hs : S100000x64.Idx → EReal) (B : S1x64.Idx → EReal) (Wt : S64x64.Idx → EReal)
    (hV : Arrays V c A D Hs B Wt) (hE : Entry A D Hs B Wt x0 x1 x2 x3 x4) :
    (dat1 V c).flushed 5 t
      = ((cfg1.win 5).blk t).view.read (Elt Ideal) (Cert.ReferenceIdeal.Read.val_main_v49 (F := Ideal) x0 x1 x2 x3 x4) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x64) hz, View.ld_unit_zero (S := S1x64) hz, View.ld_unit_zero (S := S64x64) hz]
  funext j
  rw [cut5, read5]
  exact body_entry V c t x0 x1 x2 x3 x4 A D Hs B Wt hV hE j

/-- The second result array's block at a point sits where the first's does. -/
theorem emb3 (t : Fin cfg1.N) (j : S5000x64.Idx) :
    ((cfg1.win 6).blk t).view.emb j = ((cfg1.win 5).blk t).view.emb j := by
  obtain ⟨-, -, -, -, -, -, -, -, -, -, e20, e21, e30, e31⟩ := idx_facts t
  funext a; apply Fin.ext
  match a with
  | ⟨0, _⟩ => show win1_6.index t (0 : Fin 2) * 5000 + 1 * (j 0).val = win1_5.index t (0 : Fin 2) * 5000 + 1 * (j 0).val; omega
  | ⟨1, _⟩ => show win1_6.index t (1 : Fin 2) * 64 + 1 * (j 1).val = win1_5.index t (1 : Fin 2) * 64 + 1 * (j 1).val; omega

/-- The same for the copy stored in the narrower format: at the exact values the same numbers. -/
theorem flushed3 (c : Dev nD) (t : Fin cfg1.N) (x0 : S100000x128.Idx → EReal) (x1 : IVec S2x1600000 32)
    (x2 : S128x64.Idx → EReal) (x3 : S64.Idx → EReal) (x4 : S64x64.Idx → EReal)
    (A : S100000x64.Idx → EReal) (D : S100000x1.Idx → EReal) (Hs : S100000x64.Idx → EReal) (B : S1x64.Idx → EReal) (Wt : S64x64.Idx → EReal)
    (hV : Arrays V c A D Hs B Wt) (hE : Entry A D Hs B Wt x0 x1 x2 x3 x4) :
    (dat1 V c).flushed 6 t
      = ((cfg1.win 6).blk t).view.read (Elt Ideal) (Cert.ReferenceIdeal.Read.val_main_v49 (F := Ideal) x0 x1 x2 x3 x4) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x64) hz, View.ld_unit_zero (S := S1x64) hz, View.ld_unit_zero (S := S64x64) hz]
  funext j
  rw [cut6, read6, pay2_eq, emb3]
  exact body_entry V c t x0 x1 x2 x3 x4 A D Hs B Wt hV hE j

/-- An index of a result array is in point `t`'s block iff each coordinate is in the block's range. -/
theorem mem_blk2 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37_0).slice (win1_5.rect t)).set ↔ _
  rw [View.set_slice_whole, Rect.mem_set_unit]
  exact Iff.rfl
theorem mem_blk3 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v37_1).slice (win1_6.rect t)).set ↔ _
  rw [View.set_slice_whole, Rect.mem_set_unit]
  exact Iff.rfl

/-- The twenty row blocks cover the array: row `r` is in block `r / 5000`. -/
theorem cover2 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < 20 := by omega
  refine ⟨⟨(i 0).val / 5000, ht⟩, flush1_5 _, ?_⟩
  rw [mem_blk2]
  obtain ⟨-, -, -, -, -, -, -, -, -, -, e20, e21, -, -⟩ := idx_facts ⟨(i 0).val / 5000, ht⟩
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; rw [e20]; show (i 0).val / 5000 * 5000 ≤ (i 0).val ∧ (i 0).val < (i 0).val / 5000 * 5000 + 5000; omega
  | ⟨1, _⟩ => show win1_5.index ⟨(i 0).val / 5000, ht⟩ (1 : Fin 2) * 64 ≤ (i 1).val ∧ (i 1).val < win1_5.index ⟨(i 0).val / 5000, ht⟩ (1 : Fin 2) * 64 + 64; rw [e21]; omega
theorem cover3 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have ht : (i 0).val / 5000 < 20 := by omega
  refine ⟨⟨(i 0).val / 5000, ht⟩, flush1_6 _, ?_⟩
  rw [mem_blk3]
  obtain ⟨-, -, -, -, -, -, -, -, -, -, -, -, e30, e31⟩ := idx_facts ⟨(i 0).val / 5000, ht⟩
  intro a
  match a with
  | ⟨0, _⟩ => show win1_6.index ⟨(i 0).val / 5000, ht⟩ (0 : Fin 2) * 5000 ≤ (i 0).val ∧ (i 0).val < win1_6.index ⟨(i 0).val / 5000, ht⟩ (0 : Fin 2) * 5000 + 5000; rw [e30]; show (i 0).val / 5000 * 5000 ≤ (i 0).val ∧ (i 0).val < (i 0).val / 5000 * 5000 + 5000; omega
  | ⟨1, _⟩ => show win1_6.index ⟨(i 0).val / 5000, ht⟩ (1 : Fin 2) * 64 ≤ (i 1).val ∧ (i 1).val < win1_6.index ⟨(i 0).val / 5000, ht⟩ (1 : Fin 2) * 64 + 64; rw [e31]; omega

/-- After the region both result arrays hold the reference's second projection. -/
theorem final2 (c : Dev nD) (x0 : S100000x128.Idx → EReal) (x1 : IVec S2x1600000 32)
    (x2 : S128x64.Idx → EReal) (x3 : S64.Idx → EReal) (x4 : S64x64.Idx → EReal)
    (A : S100000x64.Idx → EReal) (D : S100000x1.Idx → EReal) (Hs : S100000x64.Idx → EReal) (B : S1x64.Idx → EReal) (Wt : S64x64.Idx → EReal)
    (hV : Arrays V c A D Hs B Wt) (hE : Entry A D Hs B Wt x0 x1 x2 x3 x4) :
    (dat1 V c).arrAt 5 cfg1.N = Cert.ReferenceIdeal.Read.val_main_v49 (F := Ideal) x0 x1 x2 x3 x4 :=
  (dat1 V c).arrAt_eq_of_cover 5 _ (fun t _ => flushed2 V c t x0 x1 x2 x3 x4 A D Hs B Wt hV hE) cover2
theorem final3 (c : Dev nD) (x0 : S100000x128.Idx → EReal) (x1 : IVec S2x1600000 32)
    (x2 : S128x64.Idx → EReal) (x3 : S64.Idx → EReal) (x4 : S64x64.Idx → EReal)
    (A : S100000x64.Idx → EReal) (D : S100000x1.Idx → EReal) (Hs : S100000x64.Idx → EReal) (B : S1x64.Idx → EReal) (Wt : S64x64.Idx → EReal)
    (hV : Arrays V c A D Hs B Wt) (hE : Entry A D Hs B Wt x0 x1 x2 x3 x4) :
    (dat1 V c).arrAt 6 cfg1.N = Cert.ReferenceIdeal.Read.val_main_v49 (F := Ideal) x0 x1 x2 x3 x4 :=
  (dat1 V c).arrAt_eq_of_cover 6 _ (fun t _ => flushed3 V c t x0 x1 x2 x3 x4 A D Hs B Wt hV hE) cover3

end Cert.KernelIdeal.Region1

end
-- ==== Proof.Region2.lean ====
/-
  The third region: per block of 5000 nodes, the combination of the second layer's aggregated rows, the node's own
  rows and the bias, times the head's weight column, plus the head's bias, through the logistic function.

  At the exact values, entry p of a block's result is the logistic function of the sum over the 64 hidden positions l
  of (d_p · a_(p,l) + (d_p · d_p) · h_(p,l) + b_l) · w_l, plus the head's bias; row p of block t is row 5000 t + p of
  each array.
-/
import proofs.«141481_j48095043781198_2_alg».proof.Proof.KernelIdealFrame
import proofs.«141481_j48095043781198_2_alg».proof.Proof.LibMatmul2
import proofs.«141481_j48095043781198_2_alg».proof.Proof.Gen.ReferenceIdeal.Read
import proofs.«141481_j48095043781198_2_alg».proof.Proof.RefRead
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A column laid along the 64 lanes, read at an entry. -/
theorem col_bcast {α : Type} (x : S5000x1.Idx → α) (h : S5000x1.Broadcasts S5000x64) (p : Fin 5000) (l : Fin 64) :
    broadcastTo S5000x64 x h (ix2 p l) = x (ix2 p 0) :=
  broadcastTo_apply x h (ix2 p l) (ix2 p 0) (fun a => match a with
    | ⟨0, _⟩ => by show p.val = if (5000 : Nat) = 1 then 0 else p.val; rw [if_neg (by decide)]
    | ⟨1, _⟩ => by show (0 : Nat) = if (1 : Nat) = 1 then 0 else l.val; rw [if_pos rfl])

/-- A row laid along the 5000 rows, read at an entry. -/
theorem row_bcast {α : Type} (x : S1x64.Idx → α) (h : S1x64.Broadcasts S5000x64) (p : Fin 5000) (l : Fin 64) :
    broadcastTo S5000x64 x h (ix2 p l) = x (ix2 0 l) :=
  broadcastTo_apply x h (ix2 p l) (ix2 0 l) (fun a => match a with
    | ⟨0, _⟩ => by show (0 : Nat) = if (1 : Nat) = 1 then 0 else p.val; rw [if_pos rfl]
    | ⟨1, _⟩ => by show l.val = if (64 : Nat) = 1 then 0 else l.val; rw [if_neg (by decide)])

/-- A single element laid along the 5000 rows, read at an entry. -/
theorem elt_bcast {α : Type} (x : S1x1.Idx → α) (h : S1x1.Broadcasts S5000x1) (p : Fin 5000) :
    broadcastTo S5000x1 x h (ix2 p 0) = x (ix2 0 0) :=
  broadcastTo_apply x h (ix2 p 0) (ix2 0 0) (fun a => match a with
    | ⟨0, _⟩ => by show (0 : Nat) = if (1 : Nat) = 1 then 0 else p.val; rw [if_pos rfl]
    | ⟨1, _⟩ => by show (0 : Nat) = if (1 : Nat) = 1 then 0 else 0; rw [if_pos rfl])

/-- The logistic function lane by lane. -/
theorem logistic_at (v : FVec Ideal S5000x1 .f32) (i : S5000x1.Idx) : logistic v i = Ideal.logistic (v i) := rfl

/-- The block's result at an entry. -/
theorem pay_apply (d : Vec Ideal S5000x1 .f32) (a : Vec Ideal S5000x64 .f32) (h : Vec Ideal S5000x64 .f32)
    (b : Vec Ideal S1x64 .f32) (w : Vec Ideal S64x1 .f32) (bl : Vec Ideal S1x1 .f32) (p : Fin 5000) :
    k2_pay1 (F := Ideal) d a h b w bl (ix2 p 0)
      = Ideal.logistic ((∑ l : Fin 64, ((d (ix2 p 0) * a (ix2 p l) + (d (ix2 p 0) * d (ix2 p 0)) * h (ix2 p l)) + b (ix2 0 l)) * w (ix2 l 0))
          + bl (ix2 0 0)) := by
  unfold k2_pay1
  rw [logistic_at, addf_apply, elt_bcast]
  simp only [shapeCast_self]
  refine congrArg (fun s => Ideal.logistic (s + bl (ix2 0 0))) ?_
  refine (Cert.LibMatmul2.matmul_apply (φ₁ := .bf16) (φ₂ := .bf16) ⟨rfl, rfl, rfl, rfl, rfl, rfl⟩ none _ _ (ix2 p 0)).trans ?_
  refine Finset.sum_congr rfl fun l _ => ?_
  simp only [shapeCast_self, show (ix2 p (0 : Fin 1)) 0 = p from rfl, show (ix2 p (0 : Fin 1)) 1 = (0 : Fin 1) from rfl, truncf_apply,
    addf_apply, mulf_apply, col_bcast, row_bcast]

/-- The printed index maps over the twenty points: the row blocks move with the point, the rest stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What the region needs of the arrays it is entered with, against the reference's second layer and head. -/
structure Entry (A : S100000x64.Idx → EReal) (D : S100000x1.Idx → EReal) (Hs : S100000x64.Idx → EReal)
    (B : S1x64.Idx → EReal) (Wt : S64x1.Idx → EReal) (Bl : S1x1.Idx → EReal)
    (x0 : S100000x128.Idx → EReal) (x1 : IVec S2x1600000 32) (x2 : S128x64.Idx → EReal)
    (x3 : S64.Idx → EReal) (x4 : S64x64.Idx → EReal) (x5 : S64.Idx → EReal) (x6 : S64x1.Idx → EReal) (x7 : S1.Idx → EReal) : Prop where
  agg : ∀ (n : Fin 100000) (l : Fin 64), D (ix2 n 0) * A (ix2 n l) = Cert.ReferenceIdeal.Read.val_main_v84 (F := Ideal) x0 x1 x2 x3 x4 (ix2 n l)
  dis : ∀ n : Fin 100000, D (ix2 n 0) = Cert.ReferenceIdeal.Read.val_main_v56 (F := Ideal) x1 (ix1 n)
  self : ∀ (n : Fin 100000) (l : Fin 64), Hs (ix2 n l) = Cert.ReferenceIdeal.Read.val_main_v49 (F := Ideal) x0 x1 x2 x3 x4 (ix2 n l)
  bias : ∀ l : Fin 64, B (ix2 0 l) = x5 (ix1 l)
  wts : ∀ l : Fin 64, Wt (ix2 l 0) = x6 (ix2 l 0)
  hbias : Bl (ix2 0 0) = x7 (ix1 0)

/-- The arrays the region is entered with, named. -/
structure Arrays (V : (c : Dev nD) → (b : Ref sig .tc) → Buf (Elt Ideal) ((c : Thread nD τ).loc b)) (c : Dev nD)
    (A : S100000x64.Idx → EReal) (D : S100000x1.Idx → EReal) (Hs : S100000x64.Idx → EReal)
    (B : S1x64.Idx → EReal) (Wt : S64x1.Idx → EReal) (Bl : S1x1.Idx → EReal) : Prop where
  a : V c (Pipeline.arrRef spec2 0) = A
  d : V c (Pipeline.arrRef spec2 1) = D
  h : V c (Pipeline.arrRef spec2 2) = Hs
  b : V c (Pipeline.arrRef spec2 3) = B
  w : V c (Pipeline.arrRef spec2 4) = Wt
  bl : V c (Pipeline.arrRef spec2 5) = Bl

/-- Entry `p` of what the body leaves at point `t` is entry `5000 t + p` of the reference's result. -/
theorem body_entry (c : Dev nD) (t : Fin cfg2.N) (x0 : S100000x128.Idx → EReal) (x1 : IVec S2x1600000 32)
    (x2 : S128x64.Idx → EReal) (x3 : S64.Idx → EReal) (x4 : S64x64.Idx → EReal) (x5 : S64.Idx → EReal) (x6 : S64x1.Idx → EReal) (x7 : S1.Idx → EReal)
    (A : S100000x64.Idx → EReal) (D : S100000x1.Idx → EReal) (Hs : S100000x64.Idx → EReal) (B : S1x64.Idx → EReal) (Wt : S64x1.Idx → EReal) (Bl : S1x1.Idx → EReal)
    (hV : Arrays V c A D Hs B Wt Bl) (hE : Entry A D Hs B Wt Bl x0 x1 x2 x3 x4 x5 x6 x7)
    (j : S5000x1.Idx) :
    k2_pay1 (F := Ideal) (iblk2 V c 1 t) (iblk2 V c 0 t) (iblk2 V c 2 t) (iblk2 V c 3 t) (iblk2 V c 4 t) (iblk2 V c 5 t) j
      = Cert.ReferenceIdeal.Read.val_main_v102 (F := Ideal) x0 x1 x2 x3 x4 x5 x6 x7 (((cfg2.win 6).blk t).view.emb j) := by
  obtain ⟨p, rfl⟩ : ∃ (p : Fin 5000), j = ix2 p 0 := ⟨j 0, by
    have h1 : j 1 = (0 : Fin 1) := Fin.ext (by have hlt : (j 1).val < 1 := (j 1).isLt; show (j 1).val = 0; omega)
    rw [← h1]; exact eq_ix2 j⟩
  obtain ⟨e00, e01, e10, e11, e20, e21, e30, e31, e40, e41, e50, e51, e60, e61⟩ := idx_facts t
  have ht : t.val < 20 := t.isLt
  have hn : 5000 * t.val + p.val < 100000 := by have := p.isLt; omega
  have eO : ((cfg2.win 6).blk t).view.emb (ix2 p 0) = ix2 ⟨5000 * t.val + p.val, hn⟩ 0 := by
    funext a; apply Fin.ext
    match a with
    | ⟨0, _⟩ => show win2_6.index t (0 : Fin 2) * 5000 + 1 * p.val = 5000 * t.val + p.val; omega
    | ⟨1, _⟩ => show win2_6.index t (1 : Fin 2) * 1 + 1 * 0 = 0; omega
  rw [pay_apply]
  refine Eq.trans ?_ (congrArg (Cert.ReferenceIdeal.Read.val_main_v102 (F := Ideal) x0 x1 x2 x3 x4 x5 x6 x7) eO.symm)
  rw [Cert.ReferenceIdeal.RefValue.v102_entry]
  have b1 : iblk2 V c 1 t (ix2 p 0) = D (ix2 ⟨5000 * t.val + p.val, hn⟩ 0) := by
    show V c (Pipeline.arrRef spec2 1) (((cfg2.win 1).blk t).view.emb (ix2 p 0)) = _
    rw [hV.d]
    refine congrArg D (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  have b5 : iblk2 V c 5 t (ix2 0 0) = Bl (ix2 0 0) := by
    show V c (Pipeline.arrRef spec2 5) (((cfg2.win 5).blk t).view.emb (ix2 0 0)) = _
    rw [hV.bl]
    refine congrArg Bl (funext fun a => Fin.ext ?_)
    match a with
    | ⟨0, _⟩ => show win2_5.index t (0 : Fin 2) * 1 + 1 * 0 = 0; omega
    | ⟨1, _⟩ => show win2_5.index t (1 : Fin 2) * 1 + 1 * 0 = 0; omega
  rw [b5, hE.hbias]
  refine congrArg (fun s => Ideal.logistic (s + x7 (ix1 0))) (Finset.sum_congr rfl fun l _ => ?_)
  have b0 : iblk2 V c 0 t (ix2 p l) = A (ix2 ⟨5000 * t.val + p.val, hn⟩ l) := by
    show V c (Pipeline.arrRef spec2 0) (((cfg2.win 0).blk t).view.emb (ix2 p l)) = _
    rw [hV.a]
    refine congrArg A (funext fun a => Fin.ext ?_)
    match a with
    | ⟨0, _⟩ => show win2_0.index t (0 : Fin 2) * 5000 + 1 * p.val = 5000 * t.val + p.val; omega
    | ⟨1, _⟩ => show win2_0.index t (1 : Fin 2) * 64 + 1 * l.val = l.val; omega
  have b2 : iblk2 V c 2 t (ix2 p l) = Hs (ix2 ⟨5000 * t.val + p.val, hn⟩ l) := by
    show V c (Pipeline.arrRef spec2 2) (((cfg2.win 2).blk t).view.emb (ix2 p l)) = _
    rw [hV.h]
    refine congrArg Hs (funext fun a => Fin.ext ?_)
    match a with
    | ⟨0, _⟩ => show win2_2.index t (0 : Fin 2) * 5000 + 1 * p.val = 5000 * t.val + p.val; omega
    | ⟨1, _⟩ => show win2_2.index t (1 : Fin 2) * 64 + 1 * l.val = l.val; omega
  have b3 : iblk2 V c 3 t (ix2 0 l) = B (ix2 0 l) := by
    show V c (Pipeline.arrRef spec2 3) (((cfg2.win 3).blk t).view.emb (ix2 0 l)) = _
    rw [hV.b]
    refine congrArg B (funext fun a => Fin.ext ?_)
    match a with
    | ⟨0, _⟩ => show win2_3.index t (0 : Fin 2) * 1 + 1 * 0 = 0; omega
    | ⟨1, _⟩ => show win2_3.index t (1 : Fin 2) * 64 + 1 * l.val = l.val; omega
  have b4 : iblk2 V c 4 t (ix2 l 0) = Wt (ix2 l 0) := by
    show V c (Pipeline.arrRef spec2 4) (((cfg2.win 4).blk t).view.emb (ix2 l 0)) = _
    rw [hV.w]
    refine congrArg Wt (funext fun a => Fin.ext ?_)
    match a with
    | ⟨0, _⟩ => show win2_4.index t (0 : Fin 2) * 64 + 1 * l.val = l.val; omega
    | ⟨1, _⟩ => show win2_4.index t (1 : Fin 2) * 1 + 1 * 0 = 0; omega
  rw [b1, b0, b2, b3, b4, Cert.ReferenceIdeal.RefValue.v92_entry, hE.agg, hE.dis, hE.self, hE.bias, hE.wts]

/-- A full block written back is the staging buffer's contents, entry by entry (the window is not cut at the edge). -/
theorem cut6 (t : Fin cfg2.N) (P : FVec Ideal S5000x1 .f32) (j : ((win2 6).xblock (grid2.coords t)).Idx) :
    (win2 6).cut (grid2.coords t) P j = P j := rfl
/-- An array read through a point's block, entry by entry. -/
theorem read6 (t : Fin cfg2.N) (G : S100000x1.Idx → EReal) (j : ((win2 6).xblock (grid2.coords t)).Idx) :
    View.read (Elt Ideal) ((View.whole main_v52).slice ((win2 6).rect t)) G j = G (((cfg2.win 6).blk t).view.emb j) := rfl

/-- What point `t` writes back to the result array is block `t` of the reference's result. -/
theorem flushed6 (c : Dev nD) (t : Fin cfg2.N) (x0 : S100000x128.Idx → EReal) (x1 : IVec S2x1600000 32)
    (x2 : S128x64.Idx → EReal) (x3 : S64.Idx → EReal) (x4 : S64x64.Idx → EReal) (x5 : S64.Idx → EReal) (x6 : S64x1.Idx → EReal) (x7 : S1.Idx → EReal)
    (A : S100000x64.Idx → EReal) (D : S100000x1.Idx → EReal) (Hs : S100000x64.Idx → EReal) (B : S1x64.Idx → EReal) (Wt : S64x1.Idx → EReal) (Bl : S1x1.Idx → EReal)
    (hV : Arrays V c A D Hs B Wt Bl) (hE : Entry A D Hs B Wt Bl x0 x1 x2 x3 x4 x5 x6 x7) :
    (dat2 V c).flushed 6 t
      = ((cfg2.win 6).blk t).view.read (Elt Ideal) (Cert.ReferenceIdeal.Read.val_main_v102 (F := Ideal) x0 x1 x2 x3 x4 x5 x6 x7) := by
  show (cfg2.win 6).cut (grid2.coords t) ((dat2 V c).after 6 t) = _
  rw [after2_6]
  unfold out2_6
  rw [View.canon_unit_zero hz]
  simp only [View.ld_unit_zero (S := S5000x1) hz, View.ld_unit_zero (S := S5000x64) hz, View.ld_unit_zero (S := S1x64) hz,
    View.ld_unit_zero (S := S64x1) hz, View.ld_unit_zero (S := S1x1) hz]
  funext j
  rw [cut6, read6]
  exact body_entry V c t x0 x1 x2 x3 x4 x5 x6 x7 A D Hs B Wt Bl hV hE j

/-- An index of the result array is in point `t`'s block iff each coordinate is in the block's range. -/
theorem mem_blk6 (t : Fin cfg2.N) (i : S100000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v52).slice (win2_6.rect t)).set ↔ _
  rw [View.set_slice_whole, Rect.mem_set_unit]
  exact Iff.rfl

/-- The twenty row blocks cover the array: row `r` is in block `r / 5000`. -/
theorem cover6 (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  have ht : (i 0).val / 5000 < 20 := by omega
  refine ⟨⟨(i 0).val / 5000, ht⟩, flush2_6 _, ?_⟩
  rw [mem_blk6]
  obtain ⟨-, -, -, -, -, -, -, -, -, -, -, -, e60, e61⟩ := idx_facts ⟨(i 0).val / 5000, ht⟩
  intro a
  match a with
  | ⟨0, _⟩ => show win2_6.index ⟨(i 0).val / 5000, ht⟩ (0 : Fin 2) * 5000 ≤ (i 0).val ∧ (i 0).val < win2_6.index ⟨(i 0).val / 5000, ht⟩ (0 : Fin 2) * 5000 + 5000; rw [e60]; show (i 0).val / 5000 * 5000 ≤ (i 0).val ∧ (i 0).val < (i 0).val / 5000 * 5000 + 5000; omega
  | ⟨1, _⟩ => show win2_6.index ⟨(i 0).val / 5000, ht⟩ (1 : Fin 2) * 1 ≤ (i 1).val ∧ (i 1).val < win2_6.index ⟨(i 0).val / 5000, ht⟩ (1 : Fin 2) * 1 + 1; rw [e61]; omega

/-- After the region the result array holds the reference's result. -/
theorem final6 (c : Dev nD) (x0 : S100000x128.Idx → EReal) (x1 : IVec S2x1600000 32)
    (x2 : S128x64.Idx → EReal) (x3 : S64.Idx → EReal) (x4 : S64x64.Idx → EReal) (x5 : S64.Idx → EReal) (x6 : S64x1.Idx → EReal) (x7 : S1.Idx → EReal)
    (A : S100000x64.Idx → EReal) (D : S100000x1.Idx → EReal) (Hs : S100000x64.Idx → EReal) (B : S1x64.Idx → EReal) (Wt : S64x1.Idx → EReal) (Bl : S1x1.Idx → EReal)
    (hV : Arrays V c A D Hs B Wt Bl) (hE : Entry A D Hs B Wt Bl x0 x1 x2 x3 x4 x5 x6 x7) :
    (dat2 V c).arrAt 6 cfg2.N = Cert.ReferenceIdeal.Read.val_main_v102 (F := Ideal) x0 x1 x2 x3 x4 x5 x6 x7 :=
  (dat2 V c).arrAt_eq_of_cover 6 _ (fun t _ => flushed6 V c t x0 x1 x2 x3 x4 x5 x6 x7 A D Hs B Wt Bl hV hE) cover6

end Cert.KernelIdeal.Region2

end
-- ==== Proof.LibScatterRows.lean ====
/-
  A scatter-add of whole rows, scaled row by row by a non-negative real.

  At the exact instance a scatter-add is, at every operand index `i`, the operand's element plus the sum of the
  update elements that land on `i`. Multiplication by a NON-NEGATIVE REAL `z` distributes over sums of extended
  reals (it does not for an infinite or a negative factor: `(2 + (-1)) * ⊤ = ⊤` but `2 * ⊤ + (-1) * ⊤ = ⊤ + ⊥ = ⊥`, and
  `(⊤ + ⊥) * (-1) = ⊤` but `⊤ * (-1) + ⊥ * (-1) = ⊥ + ⊤ = ⊥`), so scaling the result of a
  scatter-add at `i` by `z` is the scatter-add of the operand's element and of every update landing on `i`, each
  scaled by `z` first.

  For a scatter of whole rows — operand `[N, C]`, scatter indices `[R, 1]`, updates `[R, C]` — update element
  `(r, c)` lands on operand element `(idx[r, 0], c)`, the row number read as a signed integer and NOT clamped: a row
  number outside `[0, N)` drops the update. The same for a scatter of single elements into a flat array — operand `[N]`,
  scatter indices `[R, 1]`, updates `[R]` —: update element `r` lands on operand element `idx[r, 0]`.

  The node scale `rsqrt (max y 1)` is a non-negative real whatever `y` is, and an index that is already inside
  `[0, N)` is unchanged by the wrap-around normalization of negative indices and by the gather's clamp.
-/
import Idealize.ShloMosaic.PureOps.Ideal
import Idealize.ShloMosaic.Lib.ValueIdx
import Idealize.ShloMosaic.Lib.IdealHost

namespace Cert.LibScatterRows

open Idealize.ShloMosaic Idealize.ShloMosaic.ValueIdx

section Scale

/-- Multiplication on the right by a non-negative real distributes over a finite sum of extended reals. -/
theorem sum_mul_real {ι : Type} (t : Finset ι) (f : ι → EReal) (z : ℝ) (hz : 0 ≤ z) :
    (∑ j ∈ t, f j) * (z : EReal) = ∑ j ∈ t, f j * (z : EReal) := by
  classical
  induction t using Finset.induction_on with
  | empty => simp
  | insert a t ha ih =>
    rw [Finset.sum_insert ha, Finset.sum_insert ha,
      EReal.right_distrib_of_nonneg_of_ne_top (EReal.coe_nonneg.mpr hz) (EReal.coe_ne_top z), ih]

/-- SCALE AFTER = SCALE BEFORE: if at operand index `i` the operand `x'` is `x` scaled by the non-negative real
    `z`, and every update of `u'` landing on `i` is the one of `u` scaled by `z`, then the scatter-add of `x'` and
    `u'` at `i` is the scatter-add of `x` and `u` at `i`, scaled by `z`. -/
theorem scatterAdd_mul_real {s si su : Shape} (d : ScatterDims s si su) {w : Nat} (x x' : s.Idx → EReal)
    (idx : IVec si w) (u u' : su.Idx → EReal) (i : s.Idx) (z : ℝ) (hz : 0 ≤ z)
    (hx : x' i = x i * (z : EReal)) (hu : ∀ j, d.resultIdx? j idx = some i → u' j = u j * (z : EReal)) :
    Ideal.hostScatterAdd d x' idx u' i = Ideal.hostScatterAdd d x idx u i * (z : EReal) := by
  unfold Ideal.hostScatterAdd
  rw [EReal.right_distrib_of_nonneg_of_ne_top (EReal.coe_nonneg.mpr hz) (EReal.coe_ne_top z), sum_mul_real _ _ z hz, hx]
  congr 1
  exact Finset.sum_congr rfl fun j hj => hu j (Finset.mem_filter.mp hj).2

end Scale

section Rows

/-- The dimension numbers of a scatter of whole rows: operand `[N, C]`, scatter indices `[R, 1]`, updates `[R, C]`;
    the updates' axis 1 is the window axis (it runs along a row), the operand's axis 0 is inserted and is the one the
    scatter index names. Their conditions `wf` are decided on a program's literal shapes. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An operand axis takes a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

variable {N R C w : Nat} (wf : ScatterDims.WF ⟨2, ![N, C]⟩ ⟨2, ![R, 1]⟩ ⟨2, ![R, C]⟩ [1] [0] [0] 1)

/-- On the row axis the window of update `(r, c)` starts at `idx[r, 0]`, read as a signed integer. -/
theorem rows_start_row (idx : IVec ⟨2, ![R, 1]⟩ w) (j : (⟨2, ![R, C]⟩ : Shape).Idx) :
    (rowsScatterDims N R C wf).start j idx (0 : Fin 2) = (idx (ix2 (j 0) 0)).toInt := by
  unfold ScatterDims.start
  rw [dif_pos (show (0 : Fin 2) ∈ (rowsScatterDims N R C wf).scatterDimsToOperandDims from
    List.mem_singleton.mpr rfl)]
  have hsi : (rowsScatterDims N R C wf).siIdx j
      ⟨List.idxOf (0 : Fin 2) (rowsScatterDims N R C wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at `0`: the scatter index does not name that axis. -/
theorem rows_start_col (idx : IVec ⟨2, ![R, 1]⟩ w) (j : (⟨2, ![R, C]⟩ : Shape).Idx) :
    (rowsScatterDims N R C wf).start j idx (1 : Fin 2) = 0 := by
  have hne : ¬ ((1 : Fin 2) = 0) := by decide
  unfold ScatterDims.start
  rw [dif_neg (fun h => hne (List.mem_singleton.mp h))]

/-- The row axis is inserted: the window coordinate on it is `0`. -/
theorem rows_window_row (j : (⟨2, ![R, C]⟩ : Shape).Idx) :
    (rowsScatterDims N R C wf).window j (0 : Fin 2) = 0 := by
  unfold ScatterDims.window
  rw [dif_neg (fun h => (mem_sKept _ _).mp h (List.mem_singleton.mpr rfl))]

/-- The column axis is the window axis: the window coordinate on it is the update's own column. -/
theorem rows_window_col (j : (⟨2, ![R, C]⟩ : Shape).Idx) :
    (rowsScatterDims N R C wf).window j (1 : Fin 2) = (j 1).val := by
  have hne : ¬ ((1 : Fin 2) = 0) := by decide
  unfold ScatterDims.window
  rw [dif_pos ((mem_sKept _ _).mpr (fun h => hne (List.mem_singleton.mp h)))]
  rfl

/-- WHERE A ROW UPDATE LANDS: if update element `j = (r, c)` lands on operand element `i`, then the row number
    `idx[r, 0]`, read as a signed integer (not clamped), is `i`'s row, and `c` is `i`'s column. -/
theorem rows_resultIdx_some (idx : IVec ⟨2, ![R, 1]⟩ w) (j : (⟨2, ![R, C]⟩ : Shape).Idx)
    (i : (⟨2, ![N, C]⟩ : Shape).Idx) (h : (rowsScatterDims N R C wf).resultIdx? j idx = some i) :
    (idx (ix2 (j 0) 0)).toInt = ((i 0).val : Int) ∧ (j 1).val = (i 1).val := by
  unfold ScatterDims.resultIdx? at h
  split at h
  · rename_i hb
    have hi := Option.some.inj h
    have h0 : (i (0 : Fin 2)).val
        = ((rowsScatterDims N R C wf).start j idx (0 : Fin 2) + (rowsScatterDims N R C wf).window j (0 : Fin 2)).toNat := by
      rw [← hi]
    have h1 : (i (1 : Fin 2)).val
        = ((rowsScatterDims N R C wf).start j idx (1 : Fin 2) + (rowsScatterDims N R C wf).window j (1 : Fin 2)).toNat := by
      rw [← hi]
    have hb0 := (hb (0 : Fin 2)).1
    rw [rows_start_row, rows_window_row] at h0 hb0
    rw [rows_start_col, rows_window_col] at h1
    constructor
    · omega
    · omega
  · exact absurd h (by simp)

end Rows

section Flat

/-- The dimension numbers of a scatter of single elements into a flat array: operand `[N]`, scatter indices
    `[R, 1]`, updates `[R]`; no window axis, the operand's only axis is inserted and is the one the scatter index
    names. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- WHERE AN ELEMENT UPDATE LANDS: if update element `j = (r)` lands on operand element `i`, then `idx[r, 0]`, read
    as a signed integer (not clamped), is `i`'s position. -/
theorem flat_resultIdx_some {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx)
    (h : (flatScatterDims N R wf).resultIdx? j idx = some i) :
    (idx (ix2 (j 0) 0)).toInt = ((i 0).val : Int) := by
  have hstart : (flatScatterDims N R wf).start j idx (0 : Fin 1) = (idx (ix2 (j 0) 0)).toInt := by
    unfold ScatterDims.start
    rw [dif_pos (show (0 : Fin 1) ∈ (flatScatterDims N R wf).scatterDimsToOperandDims from
      List.mem_singleton.mpr rfl)]
    have hsi : (flatScatterDims N R wf).siIdx j
        ⟨List.idxOf (0 : Fin 1) (flatScatterDims N R wf).scatterDimsToOperandDims,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwindow : (flatScatterDims N R wf).window j (0 : Fin 1) = 0 := by
    unfold ScatterDims.window
    rw [dif_neg (fun h => (mem_sKept _ _).mp h (List.mem_singleton.mpr rfl))]
  unfold ScatterDims.resultIdx? at h
  split at h
  · rename_i hb
    have hi := Option.some.inj h
    have h0 : (i (0 : Fin 1)).val
        = ((flatScatterDims N R wf).start j idx (0 : Fin 1) + (flatScatterDims N R wf).window j (0 : Fin 1)).toNat := by
      rw [← hi]
    have hb0 := (hb (0 : Fin 1)).1
    rw [hstart, hwindow] at h0 hb0
    omega
  · exact absurd h (by simp)

end Flat

section NodeScale

/-- The reciprocal square root of a positive extended real is a non-negative real: `0` at `⊤`, `(√r)⁻¹` at a
    positive real `r`. -/
theorem rsqrt_of_pos (m : EReal) (hm : 0 < m) : ∃ z : ℝ, 0 ≤ z ∧ Ideal.rsqrt m = (z : EReal) := by
  induction m using EReal.rec with
  | bot => exact absurd hm (by simp)
  | top => exact ⟨0, le_refl 0, by simp⟩
  | coe r =>
    have hr : 0 < r := EReal.coe_pos.mp hm
    refine ⟨(Real.sqrt r)⁻¹, inv_nonneg.mpr (Real.sqrt_nonneg r), ?_⟩
    rw [Ideal.rsqrt_coe, if_neg (not_lt.mpr hr.le), if_neg hr.ne']

/-- THE NODE SCALE IS A NON-NEGATIVE REAL whatever the degree `y` is (finite, infinite or junk): `max y 1` is at
    least `1`, so its reciprocal square root is `0` (at `⊤`) or the inverse of a real square root. -/
theorem rsqrt_max_one (y : EReal) : ∃ z : ℝ, 0 ≤ z ∧ Ideal.rsqrt (max y 1) = (z : EReal) :=
  rsqrt_of_pos (max y 1) (lt_of_lt_of_le zero_lt_one (le_max_right y 1))

/-- The f32 word `0x3F800000` is the extended real one. -/
theorem ofBits_one : Ideal.ofBits .f32 0x3F800000#32 = (1 : EReal) := Ideal.ofBits_one_f32

end NodeScale

section InRange

/-- A select on "`v` is negative" (signed comparison with the zero word) takes its second operand when `v`, read
    as a signed integer, is not negative. -/
theorem select_slt_zero_of_nonneg {α : Type} (v : BitVec 32) (a b : α) (hv : 0 ≤ v.toInt) :
    Scalar.select (IntOp.cmpi .slt v 0#32) a b = b := by
  have h : v.slt 0#32 = false := by
    simp only [BitVec.slt, BitVec.toInt_zero, decide_eq_false_iff_not, not_lt]
    exact hv
  show Scalar.select (BitVec.ofBool (v.slt 0#32)) a b = b
  rw [h]
  exact select_zero a b

/-- AN IN-RANGE INDEX IS ITS OWN NORMALIZATION: the wrap-around of negative indices, `v < 0 ? v + 50000 : v`, leaves a
    word `v` that reads as the signed integer `r ≥ 0` unchanged. -/
theorem normalize_of_inRange (v : BitVec 32) (r : Nat) (hv : v.toInt = (r : Int)) :
    Scalar.select (IntOp.cmpi .slt v 0#32) (IntOp.addi v 50000#32) v = v :=
  select_slt_zero_of_nonneg v _ _ (by omega)

/-- AN IN-RANGE INDEX IS ITS OWN CLAMP: a word that reads as the signed integer `r < N` names row `r` after the
    gather's clamp into `[0, N − 1]`. -/
theorem clamp_of_inRange (N : Nat) (v : BitVec 32) (r : Nat) (hr : r < N) (hv : v.toInt = (r : Int)) :
    min v.toInt.toNat (N - 1) = r := by
  omega

/-- The same at `N = 50000`. -/
theorem clamp_of_inRange_50000 (v : BitVec 32) (r : Nat) (hr : r < 50000) (hv : v.toInt = (r : Int)) :
    min v.toInt.toNat (50000 - 1) = r :=
  clamp_of_inRange 50000 v r hr hv

end InRange

end Cert.LibScatterRows
-- ==== Proof.LibGraphScale.lean ====
/-
  The algebra of one graph aggregation on the extended reals.

  A scatter-add of whole rows into a zero array, read at node `n` and column `c`, is the sum of the updates of the
  edges whose destination word reads `n`.  Scaling that sum by a non-negative real `z` is scaling every such
  update by `z` (multiplication by a non-negative real distributes over sums of extended reals).  With `z` the
  destination node's own normalisation this is the step from "normalise per source, aggregate, then scale the node's
  sum" to "normalise per edge by both end points, then aggregate".

  The normalisation is the reciprocal square root of a degree count plus one: a count is a sum of non-negative
  terms, so the degree is positive and its reciprocal square root is a non-negative real.
-/
import Idealize.ShloMosaic.PureOps.Ideal
import Idealize.ShloMosaic.Lib.ValueIdx
import Idealize.ShloMosaic.Lib.IdealHost
import proofs.«141481_j48095043781198_2_alg».proof.Proof.LibScatterRows

noncomputable section

namespace Cert.LibGraphScale

open Idealize.ShloMosaic Idealize.ShloMosaic.ValueIdx Cert.LibScatterRows

/-- Scaling a row scatter-add into a zero array at `(n, c)` by a non-negative real `z` is the scatter-add of
    updates each scaled by `z`; only the updates of rows whose index word reads `n` matter. -/
theorem scatter_rows_scale {N R C w : Nat}
    (wf : ScatterDims.WF ⟨2, ![N, C]⟩ ⟨2, ![R, 1]⟩ ⟨2, ![R, C]⟩ [1] [0] [0] 1)
    (zer : (⟨2, ![N, C]⟩ : Shape).Idx → EReal) (hzer : ∀ i, zer i = 0) (idx : IVec ⟨2, ![R, 1]⟩ w)
    (u u' : (⟨2, ![R, C]⟩ : Shape).Idx → EReal) (n : Fin N) (c : Fin C) (z : ℝ) (hz : 0 ≤ z)
    (hu : ∀ r : Fin R, (idx (ix2 r 0)).toInt = (n.val : Int) → u' (ix2 r c) = u (ix2 r c) * (z : EReal)) :
    Ideal.hostScatterAdd (rowsScatterDims N R C wf) zer idx u' (ix2 n c)
      = Ideal.hostScatterAdd (rowsScatterDims N R C wf) zer idx u (ix2 n c) * (z : EReal) := by
  refine scatterAdd_mul_real _ zer zer idx u u' (ix2 n c) z hz (by rw [hzer, zero_mul]) (fun j hj => ?_)
  obtain ⟨h0, h1⟩ := rows_resultIdx_some wf idx j (ix2 n c) hj
  have e1 : j 1 = c := Fin.ext h1
  have hj' : j = ix2 (j 0) c := by rw [← e1]; exact eq_ix2 j
  rw [hj']
  exact hu (j 0) h0

/-- A scatter-add of non-negative updates into a non-negative entry, plus a positive number, is positive. -/
theorem scatterAdd_add_pos {s si su : Shape} (d : ScatterDims s si su) {w : Nat} (x : s.Idx → EReal) (idx : IVec si w)
    (upd : su.Idx → EReal) (i : s.Idx) (e : EReal) (hx : 0 ≤ x i) (hupd : ∀ j, 0 ≤ upd j) (he : 0 < e) :
    0 < Ideal.hostScatterAdd d x idx upd i + e := by
  unfold Ideal.hostScatterAdd
  exact lt_of_lt_of_le he (le_add_of_nonneg_left (add_nonneg hx (Finset.sum_nonneg fun j _ => hupd j)))

/-- So the reciprocal square root of such a degree is a non-negative real. -/
theorem rsqrt_degree_real {s si su : Shape} (d : ScatterDims s si su) {w : Nat} (x : s.Idx → EReal) (idx : IVec si w)
    (upd : su.Idx → EReal) (i : s.Idx) (e : EReal) (hx : 0 ≤ x i) (hupd : ∀ j, 0 ≤ upd j) (he : 0 < e) :
    ∃ z : ℝ, 0 ≤ z ∧ Ideal.rsqrt (Ideal.hostScatterAdd d x idx upd i + e) = (z : EReal) :=
  rsqrt_of_pos _ (scatterAdd_add_pos d x idx upd i e hx hupd he)

/-- The per-edge step: the source factor, the destination factor and the row entry regroup. -/
theorem edge_regroup (a z b : EReal) : (a * z) * b = (a * b) * z := mul_right_comm a z b

end Cert.LibGraphScale

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.AggRef.lean ====
/-
  The reference's two graph aggregations against the kernel's.

  The reference normalises every edge by the source node's and the destination node's factors before the scatter-add;
  the kernel normalises by the source's only, aggregates, and scales node `n`'s sum by `n`'s factor afterwards.  An
  edge lands on node `n` exactly when its destination word reads `n` (a word outside the range drops the edge on both
  sides), and for such an edge the reference's destination factor IS node `n`'s: the wrap-around of negative indices
  and the gather's clamp do nothing to an in-range word.  Node `n`'s factor is a non-negative real, so scaling the sum
  is scaling its terms.
-/
import proofs.«141481_j48095043781198_2_alg».proof.Proof.Gen.ReferenceIdeal.Read
import proofs.«141481_j48095043781198_2_alg».proof.Proof.LibGraphScale
import proofs.«141481_j48095043781198_2_alg».proof.Proof.LibRows
import proofs.«141481_j48095043781198_2_alg».proof.Proof.LibScatterRows
import Idealize.ShloMosaic.Lib.ValueIdx
import Idealize.ShloMosaic.Lib.IdealHost

set_option maxRecDepth 16384

noncomputable section

namespace Cert.ReferenceIdeal.Agg

open Cert.ReferenceIdeal Cert.ReferenceIdeal.Gen Cert.ReferenceIdeal.Read
open Idealize.ShloMosaic Idealize.ShloMosaic.TcCoe Idealize.ShloMosaic.ValueIdx Idealize.SL.Sem

variable (x0 : S100000x128.Idx → EReal) (x1 : IVec S2x1600000 32) (x2 : S128x64.Idx → EReal) (x3 : S64.Idx → EReal)
  (x4 : S64x64.Idx → EReal)

/-! ## Layer 1 -/

theorem l1_zeros_flat (i : S100000.Idx) : val_main_v6 (F := Ideal) i = 0 := by
  rw [val_main_v6_apply, val_main_cst_0_apply]; exact Ideal.ofBits_zero_f32
theorem l1_ones_edges (j : S1600000.Idx) : val_main_v5 (F := Ideal) j = 1 := by
  rw [val_main_v5_apply, val_main_cst_apply]; exact Ideal.ofBits_one_f32
theorem l1_ones_nodes (i : S100000.Idx) : val_main_v9 (F := Ideal) i = 1 := by
  rw [val_main_v9_apply, val_main_cst_1_apply]; exact Ideal.ofBits_one_f32
theorem l1_zeros_rows (i : S100000x64.Idx) : val_main_v37 (F := Ideal) i = 0 := by
  rw [val_main_v37_apply, val_main_cst_7_apply]; exact Ideal.ofBits_zero_f32

/-- The node normalisation — the reciprocal square root of the in-degree count plus one — is a non-negative real. -/
theorem l1_dis_real (n : Fin 100000) : ∃ z : ℝ, 0 ≤ z ∧ val_main_v11 (F := Ideal) x1 (ix1 n) = (z : EReal) := by
  have h8 : val_main_v8 (F := Ideal) x1 = Ideal.hostScatterAdd scatter_S100000_S1600000x1_S1600000_n_0_0_1 (val_main_v6 (F := Ideal))
      (val_main_v7 (F := Ideal) x1) (val_main_v5 (F := Ideal)) := by
    unfold val_main_v8 Host.scatterAdd
    exact Ideal.hostScatterAdd_def _ _ _ _ _
  rw [val_main_v11_apply, Ideal.hostUnary_rsqrt_def, val_main_v10_apply, Ideal.addf_def, h8]
  have hx : (0 : EReal) ≤ val_main_v6 (F := Ideal) (ix1 n) := le_of_eq (l1_zeros_flat (ix1 n)).symm
  have hupd : ∀ j, (0 : EReal) ≤ val_main_v5 (F := Ideal) j := fun j => le_of_lt (lt_of_lt_of_eq zero_lt_one (l1_ones_edges j).symm)
  have he : (0 : EReal) < val_main_v9 (F := Ideal) (ix1 n) := lt_of_lt_of_eq zero_lt_one (l1_ones_nodes (ix1 n)).symm
  exact Cert.LibGraphScale.rsqrt_degree_real scatter_S100000_S1600000x1_S1600000_n_0_0_1 (val_main_v6 (F := Ideal)) (val_main_v7 (F := Ideal) x1)
    (val_main_v5 (F := Ideal)) (ix1 n) (val_main_v9 (F := Ideal) (ix1 n)) hx hupd he

/-- The destination-side factor of an edge whose destination word reads the in-range node `n` is node `n`'s
    normalisation: the wrap-around of negative indices and the gather's clamp leave such a word alone. -/
theorem l1_dst_factor (r : Fin 1600000) (n : Fin 100000) (hr : (val_main_v3 (F := Ideal) x1 (ix1 r)).toInt = (n.val : Int)) :
    val_main_v25 (F := Ideal) x1 (ix1 r) = val_main_v11 (F := Ideal) x1 (ix1 n) := by
  have hg : val_main_v25 (F := Ideal) x1 (ix1 r)
      = Host.gather (Cert.LibRows.take1Dims 100000 1600000 gather_S100000_S1600000x1_S1600000_n_0_n_n_0_1_1_wf) (val_main_v11 (F := Ideal) x1) (val_main_v24 (F := Ideal) x1) (ix1 r) := by
    unfold val_main_v25; rfl
  rw [hg, Cert.LibRows.gather_take1_apply_ix1 (by decide)]
  refine congrArg (val_main_v11 (F := Ideal) x1) (congrArg ix1 (Fin.ext ?_))
  have e24 : val_main_v24 (F := Ideal) x1 (ix2 r 0) = val_main_v3 (F := Ideal) x1 (ix1 r) := by
    rw [val_main_v24_apply, val_main_v23_apply, val_main_v20_apply, val_main_v22_apply, val_main_v19_apply, val_main_v21_apply, val_main_c_3_apply, val_main_c_4_apply]
    have e : idx_main_v24 (ix2 r 0) = ix1 r := funext fun a => Fin.ext (by match a with | ⟨0, _⟩ => rfl)
    rw [e]
    exact Cert.LibScatterRows.select_slt_zero_of_nonneg _ _ _ (by omega)
  show min (val_main_v24 (F := Ideal) x1 (ix2 r 0)).toInt.toNat (100000 - 1) = n.val
  rw [e24]
  exact Cert.LibScatterRows.clamp_of_inRange 100000 _ n.val n.isLt hr

/-- THE AGGREGATION: node `n`'s normalisation times the sum of the source-normalised rows of the edges into `n` is
    the sum of those rows normalised by both end points. -/
theorem l1_agg (KU : S1600000x64.Idx → EReal)
    (hKU : ∀ (r : Fin 1600000) (l : Fin 64), KU (ix2 r l) = val_main_v18 (F := Ideal) x1 (ix1 r) * val_main_v34 (F := Ideal) x0 x1 x2 (ix2 r l))
    (n : Fin 100000) (l : Fin 64) :
    val_main_v11 (F := Ideal) x1 (ix1 n)
        * Ideal.hostScatterAdd scatter_S100000x64_S1600000x1_S1600000x64_1_0_0_1 (val_main_v37 (F := Ideal)) (val_main_v38 (F := Ideal) x1) KU (ix2 n l)
      = val_main_v39 (F := Ideal) x0 x1 x2 (ix2 n l) := by
  obtain ⟨z, hz0, hz⟩ := l1_dis_real x1 n
  rw [hz, mul_comm]
  symm
  have h39 : val_main_v39 (F := Ideal) x0 x1 x2 = Ideal.hostScatterAdd scatter_S100000x64_S1600000x1_S1600000x64_1_0_0_1 (val_main_v37 (F := Ideal))
      (val_main_v38 (F := Ideal) x1) (val_main_v36 (F := Ideal) x0 x1 x2) := by
    unfold val_main_v39 Host.scatterAdd
    exact Ideal.hostScatterAdd_def _ _ _ _ _
  have hd : scatter_S100000x64_S1600000x1_S1600000x64_1_0_0_1
      = Cert.LibScatterRows.rowsScatterDims 100000 1600000 64 scatter_S100000x64_S1600000x1_S1600000x64_1_0_0_1_wf := rfl
  rw [h39, hd]
  refine Cert.LibGraphScale.scatter_rows_scale scatter_S100000x64_S1600000x1_S1600000x64_1_0_0_1_wf (val_main_v37 (F := Ideal)) l1_zeros_rows
    (val_main_v38 (F := Ideal) x1) KU (val_main_v36 (F := Ideal) x0 x1 x2) n l z hz0 (fun r hr => ?_)
  have hr3 : (val_main_v3 (F := Ideal) x1 (ix1 r)).toInt = (n.val : Int) := by
    rw [val_main_v38_apply] at hr
    have e : idx_main_v38 (ix2 r 0) = ix1 r := funext fun a => Fin.ext (by match a with | ⟨0, _⟩ => rfl)
    rw [e] at hr
    exact hr
  rw [hKU, val_main_v36_apply, val_main_v35_apply, val_main_v27_apply, val_main_v26_apply]
  have e : idx_main_v27 (idx_main_v35 (ix2 r l)) = ix1 r := funext fun a => Fin.ext (by match a with | ⟨0, _⟩ => rfl)
  rw [e, l1_dst_factor x1 r n hr3, hz]
  exact Cert.LibGraphScale.edge_regroup _ _ _

/-! ## Layer 2 -/

theorem l2_zeros_flat (i : S100000.Idx) : val_main_v51 (F := Ideal) i = 0 := by
  rw [val_main_v51_apply, val_main_cst_9_apply]; exact Ideal.ofBits_zero_f32
theorem l2_ones_edges (j : S1600000.Idx) : val_main_v50 (F := Ideal) j = 1 := by
  rw [val_main_v50_apply, val_main_cst_8_apply]; exact Ideal.ofBits_one_f32
theorem l2_ones_nodes (i : S100000.Idx) : val_main_v54 (F := Ideal) i = 1 := by
  rw [val_main_v54_apply, val_main_cst_10_apply]; exact Ideal.ofBits_one_f32
theorem l2_zeros_rows (i : S100000x64.Idx) : val_main_v82 (F := Ideal) i = 0 := by
  rw [val_main_v82_apply, val_main_cst_17_apply]; exact Ideal.ofBits_zero_f32

/-- The node normalisation — the reciprocal square root of the in-degree count plus one — is a non-negative real. -/
theorem l2_dis_real (n : Fin 100000) : ∃ z : ℝ, 0 ≤ z ∧ val_main_v56 (F := Ideal) x1 (ix1 n) = (z : EReal) := by
  have h8 : val_main_v53 (F := Ideal) x1 = Ideal.hostScatterAdd scatter_S100000_S1600000x1_S1600000_n_0_0_1 (val_main_v51 (F := Ideal))
      (val_main_v52 (F := Ideal) x1) (val_main_v50 (F := Ideal)) := by
    unfold val_main_v53 Host.scatterAdd
    exact Ideal.hostScatterAdd_def _ _ _ _ _
  rw [val_main_v56_apply, Ideal.hostUnary_rsqrt_def, val_main_v55_apply, Ideal.addf_def, h8]
  have hx : (0 : EReal) ≤ val_main_v51 (F := Ideal) (ix1 n) := le_of_eq (l2_zeros_flat (ix1 n)).symm
  have hupd : ∀ j, (0 : EReal) ≤ val_main_v50 (F := Ideal) j := fun j => le_of_lt (lt_of_lt_of_eq zero_lt_one (l2_ones_edges j).symm)
  have he : (0 : EReal) < val_main_v54 (F := Ideal) (ix1 n) := lt_of_lt_of_eq zero_lt_one (l2_ones_nodes (ix1 n)).symm
  exact Cert.LibGraphScale.rsqrt_degree_real scatter_S100000_S1600000x1_S1600000_n_0_0_1 (val_main_v51 (F := Ideal)) (val_main_v52 (F := Ideal) x1)
    (val_main_v50 (F := Ideal)) (ix1 n) (val_main_v54 (F := Ideal) (ix1 n)) hx hupd he

/-- The destination-side factor of an edge whose destination word reads the in-range node `n` is node `n`'s
    normalisation: the wrap-around of negative indices and the gather's clamp leave such a word alone. -/
theorem l2_dst_factor (r : Fin 1600000) (n : Fin 100000) (hr : (val_main_v3 (F := Ideal) x1 (ix1 r)).toInt = (n.val : Int)) :
    val_main_v70 (F := Ideal) x1 (ix1 r) = val_main_v56 (F := Ideal) x1 (ix1 n) := by
  have hg : val_main_v70 (F := Ideal) x1 (ix1 r)
      = Host.gather (Cert.LibRows.take1Dims 100000 1600000 gather_S100000_S1600000x1_S1600000_n_0_n_n_0_1_1_wf) (val_main_v56 (F := Ideal) x1) (val_main_v69 (F := Ideal) x1) (ix1 r) := by
    unfold val_main_v70; rfl
  rw [hg, Cert.LibRows.gather_take1_apply_ix1 (by decide)]
  refine congrArg (val_main_v56 (F := Ideal) x1) (congrArg ix1 (Fin.ext ?_))
  have e24 : val_main_v69 (F := Ideal) x1 (ix2 r 0) = val_main_v3 (F := Ideal) x1 (ix1 r) := by
    rw [val_main_v69_apply, val_main_v68_apply, val_main_v65_apply, val_main_v67_apply, val_main_v64_apply, val_main_v66_apply, val_main_c_13_apply, val_main_c_14_apply]
    have e : idx_main_v69 (ix2 r 0) = ix1 r := funext fun a => Fin.ext (by match a with | ⟨0, _⟩ => rfl)
    rw [e]
    exact Cert.LibScatterRows.select_slt_zero_of_nonneg _ _ _ (by omega)
  show min (val_main_v69 (F := Ideal) x1 (ix2 r 0)).toInt.toNat (100000 - 1) = n.val
  rw [e24]
  exact Cert.LibScatterRows.clamp_of_inRange 100000 _ n.val n.isLt hr

/-- THE AGGREGATION: node `n`'s normalisation times the sum of the source-normalised rows of the edges into `n` is
    the sum of those rows normalised by both end points. -/
theorem l2_agg (KU : S1600000x64.Idx → EReal)
    (hKU : ∀ (r : Fin 1600000) (l : Fin 64), KU (ix2 r l) = val_main_v63 (F := Ideal) x1 (ix1 r) * val_main_v79 (F := Ideal) x0 x1 x2 x3 x4 (ix2 r l))
    (n : Fin 100000) (l : Fin 64) :
    val_main_v56 (F := Ideal) x1 (ix1 n)
        * Ideal.hostScatterAdd scatter_S100000x64_S1600000x1_S1600000x64_1_0_0_1 (val_main_v82 (F := Ideal)) (val_main_v83 (F := Ideal) x1) KU (ix2 n l)
      = val_main_v84 (F := Ideal) x0 x1 x2 x3 x4 (ix2 n l) := by
  obtain ⟨z, hz0, hz⟩ := l2_dis_real x1 n
  rw [hz, mul_comm]
  symm
  have h39 : val_main_v84 (F := Ideal) x0 x1 x2 x3 x4 = Ideal.hostScatterAdd scatter_S100000x64_S1600000x1_S1600000x64_1_0_0_1 (val_main_v82 (F := Ideal))
      (val_main_v83 (F := Ideal) x1) (val_main_v81 (F := Ideal) x0 x1 x2 x3 x4) := by
    unfold val_main_v84 Host.scatterAdd
    exact Ideal.hostScatterAdd_def _ _ _ _ _
  have hd : scatter_S100000x64_S1600000x1_S1600000x64_1_0_0_1
      = Cert.LibScatterRows.rowsScatterDims 100000 1600000 64 scatter_S100000x64_S1600000x1_S1600000x64_1_0_0_1_wf := rfl
  rw [h39, hd]
  refine Cert.LibGraphScale.scatter_rows_scale scatter_S100000x64_S1600000x1_S1600000x64_1_0_0_1_wf (val_main_v82 (F := Ideal)) l2_zeros_rows
    (val_main_v83 (F := Ideal) x1) KU (val_main_v81 (F := Ideal) x0 x1 x2 x3 x4) n l z hz0 (fun r hr => ?_)
  have hr3 : (val_main_v3 (F := Ideal) x1 (ix1 r)).toInt = (n.val : Int) := by
    rw [val_main_v83_apply] at hr
    have e : idx_main_v83 (ix2 r 0) = ix1 r := funext fun a => Fin.ext (by match a with | ⟨0, _⟩ => rfl)
    rw [e] at hr
    exact hr
  rw [hKU, val_main_v81_apply, val_main_v80_apply, val_main_v72_apply, val_main_v71_apply]
  have e : idx_main_v72 (idx_main_v80 (ix2 r l)) = ix1 r := funext fun a => Fin.ext (by match a with | ⟨0, _⟩ => rfl)
  rw [e, l2_dst_factor x1 r n hr3, hz]
  exact Cert.LibGraphScale.edge_regroup _ _ _

end Cert.ReferenceIdeal.Agg

end
-- ==== Proof.LibVecLayout.lean ====
/-
  Small layout facts read at an index: a vector made a column or a row, and a per-edge vector laid along the 64
  columns of the edge rows.
-/
import Idealize.ShloMosaic.Lib.Pipeline.Value
import Idealize.ShloMosaic.Lib.ValueIdx

noncomputable section

namespace Cert.LibVecLayout

open Idealize.ShloMosaic Idealize.ShloMosaic.ValueIdx

/-- A vector of `n` entries reshaped to a column, read at row `k`. -/
theorem col_of_vec {α : Type} {n : Nat} (y : (⟨1, ![n]⟩ : Shape).Idx → α)
    (h : (⟨1, ![n]⟩ : Shape).ShapeCasts ⟨2, ![n, 1]⟩) (k : Fin n) :
    shapeCast ⟨2, ![n, 1]⟩ y h (ix2 k 0) = y (ix1 k) :=
  shapeCast_apply y h (ix2 k 0) (ix1 k)
    (by rewrite [Shape.rowMajor_val_two, Shape.rowMajor_val_one]; show k.val = k.val * 1 + 0; omega)

/-- A vector of `n` entries reshaped to a row, read at column `k`. -/
theorem row_of_vec {α : Type} {n : Nat} (y : (⟨1, ![n]⟩ : Shape).Idx → α)
    (h : (⟨1, ![n]⟩ : Shape).ShapeCasts ⟨2, ![1, n]⟩) (k : Fin n) :
    shapeCast ⟨2, ![1, n]⟩ y h (ix2 0 k) = y (ix1 k) :=
  shapeCast_apply y h (ix2 0 k) (ix1 k)
    (by rewrite [Shape.rowMajor_val_two, Shape.rowMajor_val_one]; show k.val = 0 * n + k.val; omega)

/-- A per-edge vector made a column and laid along the 64 columns of the edge rows, read at an entry. -/
theorem edge_bcast {α : Type} (y : (⟨1, ![1600000]⟩ : Shape).Idx → α)
    (h1 : (⟨1, ![1600000]⟩ : Shape).BroadcastsInDim ⟨2, ![1600000, 1]⟩ ![0])
    (h2 : (⟨2, ![1600000, 1]⟩ : Shape).BroadcastsInDim ⟨2, ![1600000, 64]⟩ ![0, 1]) (r : Fin 1600000) (l : Fin 64) :
    broadcastInDim ⟨2, ![1600000, 64]⟩ ![0, 1] h2 (broadcastInDim ⟨2, ![1600000, 1]⟩ ![0] h1 y) (ix2 r l) = y (ix1 r) :=
  (broadcastInDim_apply ![0, 1] h2 _ (ix2 r l) (ix2 r 0) (fun a => match a with
    | ⟨0, _⟩ => by show r.val = if (1600000 : Nat) = 1 then 0 else r.val; rw [if_neg (by decide)]
    | ⟨1, _⟩ => by show (0 : Nat) = if (1 : Nat) = 1 then 0 else l.val; rw [if_pos rfl])).trans
  (broadcastInDim_apply ![0] h1 y (ix2 r 0) (ix1 r) (fun a => match a with
    | ⟨0, _⟩ => by show r.val = if (1600000 : Nat) = 1 then 0 else r.val; rw [if_neg (by decide)]))

end Cert.LibVecLayout

end
-- ==== Proof.Entries.lean ====
/-
  The arrays the second and third regions are entered with satisfy what those regions need.

  The kernel's aggregated rows are the scatter-add, at the destinations, of the previous projection's rows gathered
  at the sources and scaled by the source normalisation only; the node normalisation column times that is the
  reference's aggregation (normalised per edge by both end points).  The other arrays are the reference's own stages
  re-laid: the normalisation as a column, the biases as rows.
-/
import proofs.«141481_j48095043781198_2_alg».proof.Proof.Region1
import proofs.«141481_j48095043781198_2_alg».proof.Proof.Region2
import proofs.«141481_j48095043781198_2_alg».proof.Proof.AggRef
import proofs.«141481_j48095043781198_2_alg».proof.Proof.LibVecLayout

set_option maxRecDepth 16384

noncomputable section

namespace Cert.KernelIdeal.Entries

open Cert.KernelIdeal Cert.KernelIdeal.Gen
open Idealize.ShloMosaic Idealize.ShloMosaic.TcCoe Idealize.ShloMosaic.ValueIdx Idealize.SL.Sem

variable (x0 : S100000x128.Idx → EReal) (x1 : IVec S2x1600000 32) (x2 : S128x64.Idx → EReal) (x3 : S64.Idx → EReal)
  (x4 : S64x64.Idx → EReal) (x5 : S64.Idx → EReal) (x6 : S64x1.Idx → EReal) (x7 : S1.Idx → EReal)

/-- The first layer's source-normalised edge rows. -/
def edges1 : FVec Ideal S1600000x64 .f32 :=
  mulf (F := Ideal) (broadcastInDim S1600000x64 ![0, 1] bcast_S1600000x1_S1600000x64_0_1
      (broadcastInDim S1600000x1 ![0] bcast_S1600000_S1600000x1_0 (Cert.ReferenceIdeal.Read.val_main_v18 (F := Ideal) x1)))
    (extf .f32 (Cert.ReferenceIdeal.Read.val_main_v34 (F := Ideal) x0 x1 x2 : FVec Ideal S1600000x64 .bf16) bitsLt_bf16_f32)

/-- The first layer's aggregated rows as the kernel forms them. -/
def agg1 : FVec Ideal S100000x64 .f32 :=
  Host.scatterAdd (F := Ideal) scatter_S100000x64_S1600000x1_S1600000x64_1_0_0_1 (Cert.ReferenceIdeal.Read.val_main_v37 (F := Ideal)) (Cert.ReferenceIdeal.Read.val_main_v38 (F := Ideal) x1)
    (edges1 x0 x1 x2)

/-- The second layer's source-normalised edge rows. -/
def edges2 : FVec Ideal S1600000x64 .f32 :=
  mulf (F := Ideal) (broadcastInDim S1600000x64 ![0, 1] bcast_S1600000x1_S1600000x64_0_1
      (broadcastInDim S1600000x1 ![0] bcast_S1600000_S1600000x1_0 (Cert.ReferenceIdeal.Read.val_main_v63 (F := Ideal) x1)))
    (extf .f32 (Cert.ReferenceIdeal.Read.val_main_v79 (F := Ideal) x0 x1 x2 x3 x4 : FVec Ideal S1600000x64 .bf16) bitsLt_bf16_f32)

/-- The second layer's aggregated rows as the kernel forms them. -/
def agg2 : FVec Ideal S100000x64 .f32 :=
  Host.scatterAdd (F := Ideal) scatter_S100000x64_S1600000x1_S1600000x64_1_0_0_1 (Cert.ReferenceIdeal.Read.val_main_v82 (F := Ideal)) (Cert.ReferenceIdeal.Read.val_main_v83 (F := Ideal) x1)
    (edges2 x0 x1 x2 x3 x4)

theorem edges1_apply (r : Fin 1600000) (l : Fin 64) :
    edges1 x0 x1 x2 (ix2 r l) = Cert.ReferenceIdeal.Read.val_main_v18 (F := Ideal) x1 (ix1 r) * Cert.ReferenceIdeal.Read.val_main_v34 (F := Ideal) x0 x1 x2 (ix2 r l) := by
  unfold edges1
  rw [mulf_apply, Cert.LibVecLayout.edge_bcast, extf_apply]

theorem edges2_apply (r : Fin 1600000) (l : Fin 64) :
    edges2 x0 x1 x2 x3 x4 (ix2 r l) = Cert.ReferenceIdeal.Read.val_main_v63 (F := Ideal) x1 (ix1 r) * Cert.ReferenceIdeal.Read.val_main_v79 (F := Ideal) x0 x1 x2 x3 x4 (ix2 r l) := by
  unfold edges2
  rw [mulf_apply, Cert.LibVecLayout.edge_bcast, extf_apply]

/-- The kernel's aggregations are the exact scatter-adds over the reference's dimension numbers (the same numbers). -/
theorem agg1_eq : agg1 x0 x1 x2 = Ideal.hostScatterAdd Cert.ReferenceIdeal.scatter_S100000x64_S1600000x1_S1600000x64_1_0_0_1
    (Cert.ReferenceIdeal.Read.val_main_v37 (F := Ideal)) (Cert.ReferenceIdeal.Read.val_main_v38 (F := Ideal) x1) (edges1 x0 x1 x2) := rfl
theorem agg2_eq : agg2 x0 x1 x2 x3 x4 = Ideal.hostScatterAdd Cert.ReferenceIdeal.scatter_S100000x64_S1600000x1_S1600000x64_1_0_0_1
    (Cert.ReferenceIdeal.Read.val_main_v82 (F := Ideal)) (Cert.ReferenceIdeal.Read.val_main_v83 (F := Ideal) x1) (edges2 x0 x1 x2 x3 x4) := rfl

/-- What the second region needs. -/
theorem entry1 : Cert.KernelIdeal.Region1.Entry (agg1 x0 x1 x2)
    (shapeCast S100000x1 (Cert.ReferenceIdeal.Read.val_main_v11 (F := Ideal) x1) shapeCasts_S100000_S100000x1)
    (Cert.ReferenceIdeal.Read.val_main_v4 (F := Ideal) x0 x2) (shapeCast S1x64 x3 shapeCasts_S64_S1x64) x4 x0 x1 x2 x3 x4 where
  agg n l := by
    rw [Cert.LibVecLayout.col_of_vec, agg1_eq]
    exact Cert.ReferenceIdeal.Agg.l1_agg x0 x1 x2 (edges1 x0 x1 x2) (edges1_apply x0 x1 x2) n l
  dis n := Cert.LibVecLayout.col_of_vec _ _ n
  self n l := rfl
  bias l := Cert.LibVecLayout.row_of_vec _ _ l
  wts l q := rfl

/-- What the third region needs. -/
theorem entry2 : Cert.KernelIdeal.Region2.Entry (agg2 x0 x1 x2 x3 x4)
    (shapeCast S100000x1 (Cert.ReferenceIdeal.Read.val_main_v56 (F := Ideal) x1) shapeCasts_S100000_S100000x1)
    (Cert.ReferenceIdeal.Read.val_main_v49 (F := Ideal) x0 x1 x2 x3 x4) (shapeCast S1x64 x5 shapeCasts_S64_S1x64) x6 (shapeCast S1x1 x7 shapeCasts_S1_S1x1)
    x0 x1 x2 x3 x4 x5 x6 x7 where
  agg n l := by
    rw [Cert.LibVecLayout.col_of_vec, agg2_eq]
    exact Cert.ReferenceIdeal.Agg.l2_agg x0 x1 x2 x3 x4 (edges2 x0 x1 x2 x3 x4) (edges2_apply x0 x1 x2 x3 x4) n l
  dis n := Cert.LibVecLayout.col_of_vec _ _ n
  self n l := rfl
  bias l := Cert.LibVecLayout.row_of_vec _ _ l
  wts l := rfl
  hbias := Cert.LibVecLayout.row_of_vec _ _ 0

end Cert.KernelIdeal.Entries

end
-- ==== Proof.KHost.lean ====
/-
  The arrays each region is entered with, as functions of the argument arrays.

  The program's host operations before the first region cut the edge list into its source and destination words,
  count the in-degrees, take the node normalisation and gather it at the sources; between the regions they gather the
  previous region's rows at the sources, scale them by the source normalisation and scatter-add them at the
  destinations.  Every one of these arrays is the same composition of operations as the matching stage of the
  reference, and is named here by that stage; each region's result arrays are the reference's projections (the three
  region modules), and the arrays no region or host operation writes pass through unchanged.
-/
import proofs.«141481_j48095043781198_2_alg».proof.Proof.KernelIdealFrame
import proofs.«141481_j48095043781198_2_alg».proof.Proof.Region0
import proofs.«141481_j48095043781198_2_alg».proof.Proof.Region1
import proofs.«141481_j48095043781198_2_alg».proof.Proof.Region2
import proofs.«141481_j48095043781198_2_alg».proof.Proof.Entries
import proofs.«141481_j48095043781198_2_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-- The argument arrays on core `c`. -/
abbrev a0 (c : Dev nD) : S100000x128.Idx → EReal := m ((c : Thread nD τ).loc main_arg0)
abbrev a1 (c : Dev nD) : IVec S2x1600000 32 := m ((c : Thread nD τ).loc main_arg1)
abbrev a2 (c : Dev nD) : S128x64.Idx → EReal := m ((c : Thread nD τ).loc main_arg2)
abbrev a3 (c : Dev nD) : S64.Idx → EReal := m ((c : Thread nD τ).loc main_arg3)
abbrev a4 (c : Dev nD) : S64x64.Idx → EReal := m ((c : Thread nD τ).loc main_arg4)
abbrev a5 (c : Dev nD) : S64.Idx → EReal := m ((c : Thread nD τ).loc main_arg5)
abbrev a6 (c : Dev nD) : S64x1.Idx → EReal := m ((c : Thread nD τ).loc main_arg6)
abbrev a7 (c : Dev nD) : S1.Idx → EReal := m ((c : Thread nD τ).loc main_arg7)

/-! ## After the first stretch of host operations -/

theorem W1_arg0 (c : Dev nD) : W1 m ρ c (Proc.devRef .tc main_arg0) = a0 m c := by
  show StableHlo.after hostOps0 (W0 m ρ c) (Proc.devRef .tc main_arg0) = _
  after_results_simp
theorem W1_arg2 (c : Dev nD) : W1 m ρ c (Proc.devRef .tc main_arg2) = a2 m c := by
  show StableHlo.after hostOps0 (W0 m ρ c) (Proc.devRef .tc main_arg2) = _
  after_results_simp
theorem W1_arg4 (c : Dev nD) : W1 m ρ c (Proc.devRef .tc main_arg4) = a4 m c := by
  show StableHlo.after hostOps0 (W0 m ρ c) (Proc.devRef .tc main_arg4) = _
  after_results_simp
theorem W1_arg6 (c : Dev nD) : W1 m ρ c (Proc.devRef .tc main_arg6) = a6 m c := by
  show StableHlo.after hostOps0 (W0 m ρ c) (Proc.devRef .tc main_arg6) = _
  after_results_simp
/-- The source words. -/
theorem W1_v1 (c : Dev nD) : W1 m ρ c (Proc.devRef .tc main_v1) = Cert.ReferenceIdeal.Read.val_main_v1 (F := Ideal) (a1 m c) := by
  show StableHlo.after hostOps0 (W0 m ρ c) (Proc.devRef .tc main_v1) = _
  after_results_simp
  rfl
/-- The destination words. -/
theorem W1_v3 (c : Dev nD) : W1 m ρ c (Proc.devRef .tc main_v3) = Cert.ReferenceIdeal.Read.val_main_v3 (F := Ideal) (a1 m c) := by
  show StableHlo.after hostOps0 (W0 m ρ c) (Proc.devRef .tc main_v3) = _
  after_results_simp
  rfl
/-- The node normalisation gathered at the sources. -/
theorem W1_v17 (c : Dev nD) : W1 m ρ c (Proc.devRef .tc main_v17) = Cert.ReferenceIdeal.Read.val_main_v18 (F := Ideal) (a1 m c) := by
  show StableHlo.after hostOps0 (W0 m ρ c) (Proc.devRef .tc main_v17) = _
  after_results_simp
  rfl
/-- The node normalisation as a column. -/
theorem W1_v18 (c : Dev nD) : W1 m ρ c (Proc.devRef .tc main_v18)
    = shapeCast S100000x1 (Cert.ReferenceIdeal.Read.val_main_v11 (F := Ideal) (a1 m c)) shapeCasts_S100000_S100000x1 := by
  show StableHlo.after hostOps0 (W0 m ρ c) (Proc.devRef .tc main_v18) = _
  after_results_simp
  rfl
/-- The three biases as rows. -/
theorem W1_v19 (c : Dev nD) : W1 m ρ c (Proc.devRef .tc main_v19) = shapeCast S1x64 (a3 m c) shapeCasts_S64_S1x64 := by
  show StableHlo.after hostOps0 (W0 m ρ c) (Proc.devRef .tc main_v19) = _
  after_results_simp
  rfl
theorem W1_v20 (c : Dev nD) : W1 m ρ c (Proc.devRef .tc main_v20) = shapeCast S1x64 (a5 m c) shapeCasts_S64_S1x64 := by
  show StableHlo.after hostOps0 (W0 m ρ c) (Proc.devRef .tc main_v20) = _
  after_results_simp
  rfl
theorem W1_v21 (c : Dev nD) : W1 m ρ c (Proc.devRef .tc main_v21) = shapeCast S1x1 (a7 m c) shapeCasts_S1_S1x1 := by
  show StableHlo.after hostOps0 (W0 m ρ c) (Proc.devRef .tc main_v21) = _
  after_results_simp
  rfl

/-! ## After the first region: its two result arrays are the projected features; the rest is untouched -/

theorem W2_v1 (c : Dev nD) : W2 m ρ c (Proc.devRef .tc main_v1) = Cert.ReferenceIdeal.Read.val_main_v1 (F := Ideal) (a1 m c) :=
  (W2_of_ne m ρ c main_v1 (by decide)).trans (W1_v1 m ρ c)
theorem W2_v3 (c : Dev nD) : W2 m ρ c (Proc.devRef .tc main_v3) = Cert.ReferenceIdeal.Read.val_main_v3 (F := Ideal) (a1 m c) :=
  (W2_of_ne m ρ c main_v3 (by decide)).trans (W1_v3 m ρ c)
theorem W2_v17 (c : Dev nD) : W2 m ρ c (Proc.devRef .tc main_v17) = Cert.ReferenceIdeal.Read.val_main_v18 (F := Ideal) (a1 m c) :=
  (W2_of_ne m ρ c main_v17 (by decide)).trans (W1_v17 m ρ c)
theorem W2_v18 (c : Dev nD) : W2 m ρ c (Proc.devRef .tc main_v18) = shapeCast S100000x1 (Cert.ReferenceIdeal.Read.val_main_v11 (F := Ideal) (a1 m c)) shapeCasts_S100000_S100000x1 :=
  (W2_of_ne m ρ c main_v18 (by decide)).trans (W1_v18 m ρ c)
theorem W2_v19 (c : Dev nD) : W2 m ρ c (Proc.devRef .tc main_v19) = shapeCast S1x64 (a3 m c) shapeCasts_S64_S1x64 :=
  (W2_of_ne m ρ c main_v19 (by decide)).trans (W1_v19 m ρ c)
theorem W2_v20 (c : Dev nD) : W2 m ρ c (Proc.devRef .tc main_v20) = shapeCast S1x64 (a5 m c) shapeCasts_S64_S1x64 :=
  (W2_of_ne m ρ c main_v20 (by decide)).trans (W1_v20 m ρ c)
theorem W2_v21 (c : Dev nD) : W2 m ρ c (Proc.devRef .tc main_v21) = shapeCast S1x1 (a7 m c) shapeCasts_S1_S1x1 :=
  (W2_of_ne m ρ c main_v21 (by decide)).trans (W1_v21 m ρ c)
theorem W2_arg4 (c : Dev nD) : W2 m ρ c (Proc.devRef .tc main_arg4) = a4 m c :=
  (W2_of_ne m ρ c main_arg4 (by decide)).trans (W1_arg4 m ρ c)
theorem W2_arg6 (c : Dev nD) : W2 m ρ c (Proc.devRef .tc main_arg6) = a6 m c :=
  (W2_of_ne m ρ c main_arg6 (by decide)).trans (W1_arg6 m ρ c)

theorem W2_v22_0 (c : Dev nD) : W2 m ρ c (Proc.devRef .tc main_v22_0) = Cert.ReferenceIdeal.Read.val_main_v4 (F := Ideal) (a0 m c) (a2 m c) :=
  (W2_arr m ρ c 2).trans (Cert.KernelIdeal.Region0.final2 (V1 m ρ) c _ _ (W1_arg0 m ρ c) (W1_arg2 m ρ c))
theorem W2_v22_1 (c : Dev nD) : W2 m ρ c (Proc.devRef .tc main_v22_1) = Cert.ReferenceIdeal.Read.val_main_v4 (F := Ideal) (a0 m c) (a2 m c) :=
  (W2_arr m ρ c 3).trans (Cert.KernelIdeal.Region0.final3 (V1 m ρ) c _ _ (W1_arg0 m ρ c) (W1_arg2 m ρ c))

/-! ## After the second stretch of host operations -/

theorem W3_v1 (c : Dev nD) : W3 m ρ c (Proc.devRef .tc main_v1) = Cert.ReferenceIdeal.Read.val_main_v1 (F := Ideal) (a1 m c) := by
  show StableHlo.after hostOps1 (W2 m ρ c) (Proc.devRef .tc main_v1) = _
  after_results_simp
  exact W2_v1 m ρ c
theorem W3_v3 (c : Dev nD) : W3 m ρ c (Proc.devRef .tc main_v3) = Cert.ReferenceIdeal.Read.val_main_v3 (F := Ideal) (a1 m c) := by
  show StableHlo.after hostOps1 (W2 m ρ c) (Proc.devRef .tc main_v3) = _
  after_results_simp
  exact W2_v3 m ρ c
theorem W3_v17 (c : Dev nD) : W3 m ρ c (Proc.devRef .tc main_v17) = Cert.ReferenceIdeal.Read.val_main_v18 (F := Ideal) (a1 m c) := by
  show StableHlo.after hostOps1 (W2 m ρ c) (Proc.devRef .tc main_v17) = _
  after_results_simp
  exact W2_v17 m ρ c
theorem W3_v18 (c : Dev nD) : W3 m ρ c (Proc.devRef .tc main_v18) = shapeCast S100000x1 (Cert.ReferenceIdeal.Read.val_main_v11 (F := Ideal) (a1 m c)) shapeCasts_S100000_S100000x1 := by
  show StableHlo.after hostOps1 (W2 m ρ c) (Proc.devRef .tc main_v18) = _
  after_results_simp
  exact W2_v18 m ρ c
theorem W3_v19 (c : Dev nD) : W3 m ρ c (Proc.devRef .tc main_v19) = shapeCast S1x64 (a3 m c) shapeCasts_S64_S1x64 := by
  show StableHlo.after hostOps1 (W2 m ρ c) (Proc.devRef .tc main_v19) = _
  after_results_simp
  exact W2_v19 m ρ c
theorem W3_v20 (c : Dev nD) : W3 m ρ c (Proc.devRef .tc main_v20) = shapeCast S1x64 (a5 m c) shapeCasts_S64_S1x64 := by
  show StableHlo.after hostOps1 (W2 m ρ c) (Proc.devRef .tc main_v20) = _
  after_results_simp
  exact W2_v20 m ρ c
theorem W3_v21 (c : Dev nD) : W3 m ρ c (Proc.devRef .tc main_v21) = shapeCast S1x1 (a7 m c) shapeCasts_S1_S1x1 := by
  show StableHlo.after hostOps1 (W2 m ρ c) (Proc.devRef .tc main_v21) = _
  after_results_simp
  exact W2_v21 m ρ c
theorem W3_arg4 (c : Dev nD) : W3 m ρ c (Proc.devRef .tc main_arg4) = a4 m c := by
  show StableHlo.after hostOps1 (W2 m ρ c) (Proc.devRef .tc main_arg4) = _
  after_results_simp
  exact W2_arg4 m ρ c
theorem W3_arg6 (c : Dev nD) : W3 m ρ c (Proc.devRef .tc main_arg6) = a6 m c := by
  show StableHlo.after hostOps1 (W2 m ρ c) (Proc.devRef .tc main_arg6) = _
  after_results_simp
  exact W2_arg6 m ρ c
theorem W3_v22_0 (c : Dev nD) : W3 m ρ c (Proc.devRef .tc main_v22_0) = Cert.ReferenceIdeal.Read.val_main_v4 (F := Ideal) (a0 m c) (a2 m c) := by
  show StableHlo.after hostOps1 (W2 m ρ c) (Proc.devRef .tc main_v22_0) = _
  after_results_simp
  exact W2_v22_0 m ρ c

/-- The first layer's aggregated rows. -/
theorem W3_v36 (c : Dev nD) : W3 m ρ c (Proc.devRef .tc main_v36) = Cert.KernelIdeal.Entries.agg1 (a0 m c) (a1 m c) (a2 m c) := by
  show StableHlo.after hostOps1 (W2 m ρ c) (Proc.devRef .tc main_v36) = _
  after_results_simp
  rw [W2_v3, W2_v17, W2_v22_1, W2_v1]
  rfl

/-! ## After the second region: its two result arrays are the reference's second projection -/

theorem arrays1 (c : Dev nD) : Cert.KernelIdeal.Region1.Arrays (V3 m ρ) c (Cert.KernelIdeal.Entries.agg1 (a0 m c) (a1 m c) (a2 m c))
    (shapeCast S100000x1 (Cert.ReferenceIdeal.Read.val_main_v11 (F := Ideal) (a1 m c)) shapeCasts_S100000_S100000x1) (Cert.ReferenceIdeal.Read.val_main_v4 (F := Ideal) (a0 m c) (a2 m c)) (shapeCast S1x64 (a3 m c) shapeCasts_S64_S1x64) (a4 m c) :=
  ⟨W3_v36 m ρ c, W3_v18 m ρ c, W3_v22_0 m ρ c, W3_v19 m ρ c, W3_arg4 m ρ c⟩

theorem W4_v1 (c : Dev nD) : W4 m ρ c (Proc.devRef .tc main_v1) = Cert.ReferenceIdeal.Read.val_main_v1 (F := Ideal) (a1 m c) :=
  (W4_of_ne m ρ c main_v1 (by decide)).trans (W3_v1 m ρ c)
theorem W4_v3 (c : Dev nD) : W4 m ρ c (Proc.devRef .tc main_v3) = Cert.ReferenceIdeal.Read.val_main_v3 (F := Ideal) (a1 m c) :=
  (W4_of_ne m ρ c main_v3 (by decide)).trans (W3_v3 m ρ c)
theorem W4_v17 (c : Dev nD) : W4 m ρ c (Proc.devRef .tc main_v17) = Cert.ReferenceIdeal.Read.val_main_v18 (F := Ideal) (a1 m c) :=
  (W4_of_ne m ρ c main_v17 (by decide)).trans (W3_v17 m ρ c)
theorem W4_v20 (c : Dev nD) : W4 m ρ c (Proc.devRef .tc main_v20) = shapeCast S1x64 (a5 m c) shapeCasts_S64_S1x64 :=
  (W4_of_ne m ρ c main_v20 (by decide)).trans (W3_v20 m ρ c)
theorem W4_v21 (c : Dev nD) : W4 m ρ c (Proc.devRef .tc main_v21) = shapeCast S1x1 (a7 m c) shapeCasts_S1_S1x1 :=
  (W4_of_ne m ρ c main_v21 (by decide)).trans (W3_v21 m ρ c)
theorem W4_arg6 (c : Dev nD) : W4 m ρ c (Proc.devRef .tc main_arg6) = a6 m c :=
  (W4_of_ne m ρ c main_arg6 (by decide)).trans (W3_arg6 m ρ c)

theorem W4_v18 (c : Dev nD) : W4 m ρ c (Proc.devRef .tc main_v18) = shapeCast S100000x1 (Cert.ReferenceIdeal.Read.val_main_v11 (F := Ideal) (a1 m c)) shapeCasts_S100000_S100000x1 :=
  (W4_arr m ρ c 1).trans (((dat1 (V3 m ρ) c).arrAt_in 1 rfl _).trans ((A_eq1 (V3 m ρ) c 1).trans (W3_v18 m ρ c)))
theorem W4_v37_0 (c : Dev nD) : W4 m ρ c (Proc.devRef .tc main_v37_0) = Cert.ReferenceIdeal.Read.val_main_v49 (F := Ideal) (a0 m c) (a1 m c) (a2 m c) (a3 m c) (a4 m c) :=
  (W4_arr m ρ c 5).trans (Cert.KernelIdeal.Region1.final2 (V3 m ρ) c _ _ _ _ _ _ _ _ _ _ (arrays1 m ρ c)
    (Cert.KernelIdeal.Entries.entry1 (a0 m c) (a1 m c) (a2 m c) (a3 m c) (a4 m c)))
theorem W4_v37_1 (c : Dev nD) : W4 m ρ c (Proc.devRef .tc main_v37_1) = Cert.ReferenceIdeal.Read.val_main_v49 (F := Ideal) (a0 m c) (a1 m c) (a2 m c) (a3 m c) (a4 m c) :=
  (W4_arr m ρ c 6).trans (Cert.KernelIdeal.Region1.final3 (V3 m ρ) c _ _ _ _ _ _ _ _ _ _ (arrays1 m ρ c)
    (Cert.KernelIdeal.Entries.entry1 (a0 m c) (a1 m c) (a2 m c) (a3 m c) (a4 m c)))

/-! ## After the third stretch of host operations -/

theorem W5_v18 (c : Dev nD) : W5 m ρ c (Proc.devRef .tc main_v18) = shapeCast S100000x1 (Cert.ReferenceIdeal.Read.val_main_v11 (F := Ideal) (a1 m c)) shapeCasts_S100000_S100000x1 := by
  show StableHlo.after hostOps2 (W4 m ρ c) (Proc.devRef .tc main_v18) = _
  after_results_simp
  exact W4_v18 m ρ c
theorem W5_v20 (c : Dev nD) : W5 m ρ c (Proc.devRef .tc main_v20) = shapeCast S1x64 (a5 m c) shapeCasts_S64_S1x64 := by
  show StableHlo.after hostOps2 (W4 m ρ c) (Proc.devRef .tc main_v20) = _
  after_results_simp
  exact W4_v20 m ρ c
theorem W5_v21 (c : Dev nD) : W5 m ρ c (Proc.devRef .tc main_v21) = shapeCast S1x1 (a7 m c) shapeCasts_S1_S1x1 := by
  show StableHlo.after hostOps2 (W4 m ρ c) (Proc.devRef .tc main_v21) = _
  after_results_simp
  exact W4_v21 m ρ c
theorem W5_arg6 (c : Dev nD) : W5 m ρ c (Proc.devRef .tc main_arg6) = a6 m c := by
  show StableHlo.after hostOps2 (W4 m ρ c) (Proc.devRef .tc main_arg6) = _
  after_results_simp
  exact W4_arg6 m ρ c
theorem W5_v37_0 (c : Dev nD) : W5 m ρ c (Proc.devRef .tc main_v37_0) = Cert.ReferenceIdeal.Read.val_main_v49 (F := Ideal) (a0 m c) (a1 m c) (a2 m c) (a3 m c) (a4 m c) := by
  show StableHlo.after hostOps2 (W4 m ρ c) (Proc.devRef .tc main_v37_0) = _
  after_results_simp
  exact W4_v37_0 m ρ c

/-- The second layer's aggregated rows. -/
theorem W5_v51 (c : Dev nD) : W5 m ρ c (Proc.devRef .tc main_v51) = Cert.KernelIdeal.Entries.agg2 (a0 m c) (a1 m c) (a2 m c) (a3 m c) (a4 m c) := by
  show StableHlo.after hostOps2 (W4 m ρ c) (Proc.devRef .tc main_v51) = _
  after_results_simp
  rw [W4_v3, W4_v17, W4_v37_1, W4_v1]
  rfl

/-- The node normalisation column, named by the reference's second copy of it (the same composition of operations). -/
theorem W5_v18' (c : Dev nD) : W5 m ρ c (Proc.devRef .tc main_v18)
    = shapeCast S100000x1 (Cert.ReferenceIdeal.Read.val_main_v56 (F := Ideal) (a1 m c)) shapeCasts_S100000_S100000x1 :=
  (W5_v18 m ρ c).trans rfl

theorem arrays2 (c : Dev nD) : Cert.KernelIdeal.Region2.Arrays (V5 m ρ) c (Cert.KernelIdeal.Entries.agg2 (a0 m c) (a1 m c) (a2 m c) (a3 m c) (a4 m c))
    (shapeCast S100000x1 (Cert.ReferenceIdeal.Read.val_main_v56 (F := Ideal) (a1 m c)) shapeCasts_S100000_S100000x1) (Cert.ReferenceIdeal.Read.val_main_v49 (F := Ideal) (a0 m c) (a1 m c) (a2 m c) (a3 m c) (a4 m c)) (shapeCast S1x64 (a5 m c) shapeCasts_S64_S1x64) (a6 m c) (shapeCast S1x1 (a7 m c) shapeCasts_S1_S1x1) :=
  ⟨W5_v51 m ρ c, W5_v18' m ρ c, W5_v37_0 m ρ c, W5_v20 m ρ c, W5_arg6 m ρ c, W5_v21 m ρ c⟩

/-! ## After the third region: the result array is the reference's result -/

theorem W6_v52 (c : Dev nD) : W6 m ρ c (Proc.devRef .tc main_v52) = Cert.ReferenceIdeal.Read.val_main_v102 (F := Ideal) (a0 m c) (a1 m c) (a2 m c) (a3 m c) (a4 m c) (a5 m c) (a6 m c) (a7 m c) :=
  (W6_arr m ρ c 6).trans (Cert.KernelIdeal.Region2.final6 (V5 m ρ) c _ _ _ _ _ _ _ _ _ _ _ _ _ _ (arrays2 m ρ c)
    (Cert.KernelIdeal.Entries.entry2 (a0 m c) (a1 m c) (a2 m c) (a3 m c) (a4 m c) (a5 m c) (a6 m c) (a7 m c)))

end Cert.KernelIdeal.KHost

end
-- ==== Proof.lean ====
/-
  The proof of `Cert.Claim`.

  The kernel computes a two-layer graph convolution with a logistic head in three pipelined regions; the host operations
  between them do the edge gathers and scatter-adds.  Per layer the kernel normalises each edge row by the SOURCE node's
  factor only, aggregates, and scales node n's sum by n's own factor inside the next region; the reference normalises each
  edge by both end points before aggregating.  The factor is the reciprocal square root of a positive degree count, a
  non-negative real, and multiplication by a non-negative real distributes over sums of extended reals, so the two agree
  (LibGraphScale, AggRef).  Every other stage is the same operation on both sides: a block product into a zero accumulator is the
  matching rows of the whole product, a change of float format is the identity, and the kernel's logistic operation is the
  reference's 1 / (1 + exp (-x)).

  The three frames: the two kernels' frame certificates and the reference's run.  The idealization rewrote nothing, so
  `preserves` is trivial.  `algebraic`: the kernel's run with its result array named (KRun), that array read back through
  the three regions and the host operations to the reference's result term of the arguments (Region0, Region1, Region2,
  Entries, KHost), beside the reference's run.
-/
import proofs.«141481_j48095043781198_2_alg».proof.Defs
import proofs.«141481_j48095043781198_2_alg».proof.Proof.Gen.Kernel
import proofs.«141481_j48095043781198_2_alg».proof.Proof.KernelFrame
import proofs.«141481_j48095043781198_2_alg».proof.Proof.Gen.KernelIdeal
import proofs.«141481_j48095043781198_2_alg».proof.Proof.KernelIdealFrame
import proofs.«141481_j48095043781198_2_alg».proof.Proof.Gen.ReferenceIdeal
import proofs.«141481_j48095043781198_2_alg».proof.Proof.Gen.Pre_finite_inputs
import proofs.«141481_j48095043781198_2_alg».proof.Proof.Gen.ReferenceIdeal.Run
import proofs.«141481_j48095043781198_2_alg».proof.Proof.Gen.ReferenceIdeal.Read
import proofs.«141481_j48095043781198_2_alg».proof.Proof.KRun
import proofs.«141481_j48095043781198_2_alg».proof.Proof.KHost
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) argument arrays. -/
theorem algebraic : Cert.algebraic_KernelIdeal_ReferenceIdeal := by
  intro m ρ m' ρ' _ hagree
  refine ⟨fun c => Cert.ReferenceIdeal.Read.val_main_v102 (F := Ideal) (Cert.KernelIdeal.KHost.a0 m c) (Cert.KernelIdeal.KHost.a1 m c)
    (Cert.KernelIdeal.KHost.a2 m c) (Cert.KernelIdeal.KHost.a3 m c) (Cert.KernelIdeal.KHost.a4 m c) (Cert.KernelIdeal.KHost.a5 m c)
    (Cert.KernelIdeal.KHost.a6 m c) (Cert.KernelIdeal.KHost.a7 m c), ?_, ?_⟩
  · exact (θ_run Cert.KernelIdeal.defs _ _).mono
      (fun r h c => ⟨(h c).1.trans (Cert.KernelIdeal.KHost.W6_v52 m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v102_eq, h0, h1, h2, h3, h4, h5, h6, h7]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
